-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v92)) (v1 : (c : Dev Cert.KernelIdeal.nD) → Buf (Elt Ideal) ((c.tc : Thread Cert.KernelIdeal.nD Cert.KernelIdeal.τ).loc Cert.KernelIdeal.main_v152)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v92) = v0 c
          ∧ r.2.mem ((c.tc : Thread Cert.KernelIdeal.nD Cert.KernelIdeal.τ).loc Cert.KernelIdeal.main_v152) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v92) = v0 c
          ∧ r.2.mem ((c.tc : Thread Cert.ReferenceIdeal.nD Cert.ReferenceIdeal.τ).loc Cert.ReferenceIdeal.main_v160) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S2x500000 : Shape := ⟨2, ![2, 500000]⟩
abbrev S128x128 : Shape := ⟨2, ![128, 128]⟩
abbrev S128 : Shape := ⟨1, ![128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg6 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  main_v23

def fn {F : FTy → Type} [FloatOps F] (main_arg0 : FVec F S100000x128 .f32) (main_arg1 : IVec S2x1600000 32) (main_arg2 : IVec S2x500000 32) (main_arg3 : FVec F S128x128 .f32) (main_arg4 : FVec F S128 .f32) (main_arg5 : FVec F S128x128 .f32) (main_arg6 : FVec F S128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg5
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg6 main_v13 main_v16
-- ==== Kernel.lean ====
abbrev S100000x128 : Shape := ⟨2, ![100000, 128]⟩
abbrev S2x1600000 : Shape := ⟨2, ![2, 1600000]⟩
abbrev S2x500000 : Shape := ⟨2, ![2, 500000]⟩
abbrev S128x128 : Shape := ⟨2, ![128, 128]⟩
abbrev S128 : Shape := ⟨1, ![128]⟩
abbrev S1x1600000 : Shape := ⟨2, ![1, 1600000]⟩
abbrev S1600000 : Shape := ⟨1, ![1600000]⟩
abbrev S10000x128 : Shape := ⟨2, ![10000, 128]⟩
abbrev S100000 : Shape := ⟨1, ![100000]⟩
abbrev S1700000 : Shape := ⟨1, ![1700000]⟩
abbrev S_ : Shape := ⟨0, ![]⟩
abbrev S1700000x1 : Shape := ⟨2, ![1700000, 1]⟩
abbrev S1700000x128 : Shape := ⟨2, ![1700000, 128]⟩
abbrev S1x128 : Shape := ⟨2, ![1, 128]⟩
abbrev S1600000x1 : Shape := ⟨2, ![1600000, 1]⟩
abbrev S1600000x128 : Shape := ⟨2, ![1600000, 128]⟩
abbrev S1x500000 : Shape := ⟨2, ![1, 500000]⟩
abbrev S500000 : Shape := ⟨1, ![500000]⟩
abbrev S500000x1 : Shape := ⟨2, ![500000, 1]⟩
abbrev S500000x128 : Shape := ⟨2, ![500000, 128]⟩

abbrev nBuf : Space → Nat
  | .hbm => 205
  | .vmem => 10
  | .smem => 0
  | _ => 0

abbrev hbmTy0_0 (i : Nat) : BufTy := match i % 128 with
  | 0 => ⟨S100000x128, .f32⟩
  | 1 => ⟨S2x1600000, .i32⟩
  | 2 => ⟨S2x500000, .i32⟩
  | 3 => ⟨S128x128, .f32⟩
  | 4 => ⟨S128, .f32⟩
  | 5 => ⟨S128x128, .f32⟩
  | 6 => ⟨S128, .f32⟩
  | 7 => ⟨S1x1600000, .i32⟩
  | 8 => ⟨S1600000, .i32⟩
  | 9 => ⟨S1x1600000, .i32⟩
  | 10 => ⟨S1600000, .i32⟩
  | 11 => ⟨S100000x128, .f32⟩
  | 12 => ⟨S100000, .i32⟩
  | 13 => ⟨S1700000, .i32⟩
  | 14 => ⟨S1700000, .i32⟩
  | 15 => ⟨S_, .f32⟩
  | 16 => ⟨S1700000, .f32⟩
  | 17 => ⟨S_, .f32⟩
  | 18 => ⟨S100000, .f32⟩
  | 19 => ⟨S1700000x1, .i32⟩
  | 20 => ⟨S100000, .f32⟩
  | 21 => ⟨S_, .f32⟩
  | 22 => ⟨S100000, .f32⟩
  | 23 => ⟨S100000, .i1⟩
  | 24 => ⟨S100000, .f32⟩
  | 25 => ⟨S_, .f32⟩
  | 26 => ⟨S_, .f32⟩
  | 27 => ⟨S100000, .f32⟩
  | 28 => ⟨S100000, .f32⟩
  | 29 => ⟨S_, .i32⟩
  | 30 => ⟨S1700000, .i32⟩
  | 31 => ⟨S1700000, .i1⟩
  | 32 => ⟨S_, .i32⟩
  | 33 => ⟨S1700000, .i32⟩
  | 34 => ⟨S1700000, .i32⟩
  | 35 => ⟨S1700000, .i32⟩
  | 36 => ⟨S1700000x1, .i32⟩
  | 37 => ⟨S1700000, .f32⟩
  | 38 => ⟨S1700000, .f32⟩
  | 39 => ⟨S_, .i32⟩
  | 40 => ⟨S1700000, .i32⟩
  | 41 => ⟨S1700000, .i1⟩
  | 42 => ⟨S_, .i32⟩
  | 43 => ⟨S1700000, .i32⟩
  | 44 => ⟨S1700000, .i32⟩
  | 45 => ⟨S1700000, .i32⟩
  | 46 => ⟨S1700000x1, .i32⟩
  | 47 => ⟨S1700000, .f32⟩
  | 48 => ⟨S1700000, .f32⟩
  | 49 => ⟨S_, .i32⟩
  | 50 => ⟨S1700000, .i32⟩
  | 51 => ⟨S1700000, .i1⟩
  | 52 => ⟨S_, .i32⟩
  | 53 => ⟨S1700000, .i32⟩
  | 54 => ⟨S1700000, .i32⟩
  | 55 => ⟨S1700000, .i32⟩
  | 56 => ⟨S1700000x1, .i32⟩
  | 57 => ⟨S1700000x128, .f32⟩
  | 58 => ⟨S1700000x1, .f32⟩
  | 59 => ⟨S1700000x128, .f32⟩
  | 60 => ⟨S1700000x128, .f32⟩
  | 61 => ⟨S_, .f32⟩
  | 62 => ⟨S100000x128, .f32⟩
  | 63 => ⟨S1700000x1, .i32⟩
  | 64 => ⟨S100000x128, .f32⟩
  | 65 => ⟨S1x128, .f32⟩
  | 66 => ⟨S100000x128, .f32⟩
  | 67 => ⟨S100000x128, .f32⟩
  | 68 => ⟨S_, .f32⟩
  | 69 => ⟨S100000x128, .f32⟩
  | 70 => ⟨S100000x128, .f32⟩
  | 71 => ⟨S100000x128, .f32⟩
  | 72 => ⟨S100000, .i32⟩
  | 73 => ⟨S1700000, .i32⟩
  | 74 => ⟨S1700000, .i32⟩
  | 75 => ⟨S_, .f32⟩
  | 76 => ⟨S1700000, .f32⟩
  | 77 => ⟨S_, .f32⟩
  | 78 => ⟨S100000, .f32⟩
  | 79 => ⟨S1700000x1, .i32⟩
  | 80 => ⟨S100000, .f32⟩
  | 81 => ⟨S_, .f32⟩
  | 82 => ⟨S100000, .f32⟩
  | 83 => ⟨S100000, .i1⟩
  | 84 => ⟨S100000, .f32⟩
  | 85 => ⟨S_, .f32⟩
  | 86 => ⟨S_, .f32⟩
  | 87 => ⟨S100000, .f32⟩
  | 88 => ⟨S100000, .f32⟩
  | 89 => ⟨S_, .i32⟩
  | 90 => ⟨S1700000, .i32⟩
  | 91 => ⟨S1700000, .i1⟩
  | 92 => ⟨S_, .i32⟩
  | 93 => ⟨S1700000, .i32⟩
  | 94 => ⟨S1700000, .i32⟩
  | 95 => ⟨S1700000, .i32⟩
  | 96 => ⟨S1700000x1, .i32⟩
  | 97 => ⟨S1700000, .f32⟩
  | 98 => ⟨S1700000, .f32⟩
  | 99 => ⟨S_, .i32⟩
  | 100 => ⟨S1700000, .i32⟩
  | 101 => ⟨S1700000, .i1⟩
  | 102 => ⟨S_, .i32⟩
  | 103 => ⟨S1700000, .i32⟩
  | 104 => ⟨S1700000, .i32⟩
  | 105 => ⟨S1700000, .i32⟩
  | 106 => ⟨S1700000x1, .i32⟩
  | 107 => ⟨S1700000, .f32⟩
  | 108 => ⟨S1700000, .f32⟩
  | 109 => ⟨S_, .i32⟩
  | 110 => ⟨S1700000, .i32⟩
  | 111 => ⟨S1700000, .i1⟩
  | 112 => ⟨S_, .i32⟩
  | 113 => ⟨S1700000, .i32⟩
  | 114 => ⟨S1700000, .i32⟩
  | 115 => ⟨S1700000, .i32⟩
  | 116 => ⟨S1700000x1, .i32⟩
  | 117 => ⟨S1700000x128, .f32⟩
  | 118 => ⟨S1700000x1, .f32⟩
  | 119 => ⟨S1700000x128, .f32⟩
  | 120 => ⟨S1700000x128, .f32⟩
  | 121 => ⟨S_, .f32⟩
  | 122 => ⟨S100000x128, .f32⟩
  | 123 => ⟨S1700000x1, .i32⟩
  | 124 => ⟨S100000x128, .f32⟩
  | 125 => ⟨S1x128, .f32⟩
  | 126 => ⟨S100000x128, .f32⟩
  | 127 => ⟨S100000x128, .f32⟩
  | _ => ⟨S100000x128, .f32⟩

abbrev hbmTy0_1 (i : Nat) : BufTy := match i % 128 with
  | 0 => ⟨S1x1600000, .i32⟩
  | 1 => ⟨S1600000, .i32⟩
  | 2 => ⟨S1x1600000, .i32⟩
  | 3 => ⟨S1600000, .i32⟩
  | 4 => ⟨S1600000, .i1⟩
  | 5 => ⟨S1600000, .f32⟩
  | 6 => ⟨S_, .i32⟩
  | 7 => ⟨S1600000, .i32⟩
  | 8 => ⟨S1600000, .i1⟩
  | 9 => ⟨S_, .i32⟩
  | 10 => ⟨S1600000, .i32⟩
  | 11 => ⟨S1600000, .i32⟩
  | 12 => ⟨S1600000, .i32⟩
  | 13 => ⟨S1600000x1, .i32⟩
  | 14 => ⟨S1600000x128, .f32⟩
  | 15 => ⟨S_, .i32⟩
  | 16 => ⟨S1600000, .i32⟩
  | 17 => ⟨S1600000, .i1⟩
  | 18 => ⟨S_, .i32⟩
  | 19 => ⟨S1600000, .i32⟩
  | 20 => ⟨S1600000, .i32⟩
  | 21 => ⟨S1600000, .i32⟩
  | 22 => ⟨S1600000x1, .i32⟩
  | 23 => ⟨S1600000x128, .f32⟩
  | 24 => ⟨S1600000x128, .f32⟩
  | 25 => ⟨S_, .f32⟩
  | 26 => ⟨S1600000, .f32⟩
  | 27 => ⟨S_, .f32⟩
  | 28 => ⟨S1600000, .f32⟩
  | 29 => ⟨S1600000, .f32⟩
  | 30 => ⟨S1600000, .f32⟩
  | 31 => ⟨S1600000, .f32⟩
  | 32 => ⟨S_, .f32⟩
  | 33 => ⟨S_, .f32⟩
  | 34 => ⟨S_, .f32⟩
  | 35 => ⟨S_, .f32⟩
  | 36 => ⟨S1x500000, .i32⟩
  | 37 => ⟨S500000, .i32⟩
  | 38 => ⟨S1x500000, .i32⟩
  | 39 => ⟨S500000, .i32⟩
  | 40 => ⟨S500000, .i1⟩
  | 41 => ⟨S500000, .f32⟩
  | 42 => ⟨S_, .i32⟩
  | 43 => ⟨S500000, .i32⟩
  | 44 => ⟨S500000, .i1⟩
  | 45 => ⟨S_, .i32⟩
  | 46 => ⟨S500000, .i32⟩
  | 47 => ⟨S500000, .i32⟩
  | 48 => ⟨S500000, .i32⟩
  | 49 => ⟨S500000x1, .i32⟩
  | 50 => ⟨S500000x128, .f32⟩
  | 51 => ⟨S_, .i32⟩
  | 52 => ⟨S500000, .i32⟩
  | 53 => ⟨S500000, .i1⟩
  | 54 => ⟨S_, .i32⟩
  | 55 => ⟨S500000, .i32⟩
  | 56 => ⟨S500000, .i32⟩
  | 57 => ⟨S500000, .i32⟩
  | 58 => ⟨S500000x1, .i32⟩
  | 59 => ⟨S500000x128, .f32⟩
  | 60 => ⟨S500000x128, .f32⟩
  | 61 => ⟨S_, .f32⟩
  | 62 => ⟨S500000, .f32⟩
  | 63 => ⟨S_, .f32⟩
  | 64 => ⟨S500000, .f32⟩
  | 65 => ⟨S500000, .f32⟩
  | 66 => ⟨S500000, .f32⟩
  | 67 => ⟨S500000, .f32⟩
  | 68 => ⟨S_, .f32⟩
  | 69 => ⟨S_, .f32⟩
  | 70 => ⟨S_, .f32⟩
  | 71 => ⟨S_, .f32⟩
  | 72 => ⟨S_, .f32⟩
  | 73 => ⟨S_, .f32⟩
  | 74 => ⟨S_, .f32⟩
  | 75 => ⟨S_, .f32⟩
  | 76 => ⟨S_, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | .local _ .vmem, ⟨0, _⟩ => ⟨S10000x128, .f32⟩
  | .local _ .vmem, ⟨1, _⟩ => ⟨S10000x128, .f32⟩
  | .local _ .vmem, ⟨2, _⟩ => ⟨S128x128, .f32⟩
  | .local _ .vmem, ⟨3, _⟩ => ⟨S10000x128, .f32⟩
  | .local _ .vmem, ⟨4, _⟩ => ⟨S10000x128, .f32⟩
  | .local _ .vmem, ⟨5, _⟩ => ⟨S10000x128, .f32⟩
  | .local _ .vmem, ⟨6, _⟩ => ⟨S10000x128, .f32⟩
  | .local _ .vmem, ⟨7, _⟩ => ⟨S128x128, .f32⟩
  | .local _ .vmem, ⟨8, _⟩ => ⟨S10000x128, .f32⟩
  | .local _ .vmem, ⟨9, _⟩ => ⟨S10000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst : Ref sig .tc := ⟨.hbm, 15, rfl⟩
abbrev main_v8 : Ref sig .tc := ⟨.hbm, 16, rfl⟩
abbrev main_cst_0 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_1 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_2 : Ref sig .tc := ⟨.hbm, 25, rfl⟩
abbrev main_call0_v0 : Ref sig .tc := ⟨.hbm, 26, rfl⟩
abbrev main_call0_v1 : Ref sig .tc := ⟨.hbm, 27, rfl⟩
abbrev main_v15 : Ref sig .tc := ⟨.hbm, 28, rfl⟩
abbrev main_c : Ref sig .tc := ⟨.hbm, 29, rfl⟩
abbrev main_v16 : Ref sig .tc := ⟨.hbm, 30, rfl⟩
abbrev main_v17 : Ref sig .tc := ⟨.hbm, 31, rfl⟩
abbrev main_c_3 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_c_4 : Ref sig .tc := ⟨.hbm, 39, rfl⟩
abbrev main_v24 : Ref sig .tc := ⟨.hbm, 40, rfl⟩
abbrev main_v25 : Ref sig .tc := ⟨.hbm, 41, rfl⟩
abbrev main_c_5 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_c_6 : Ref sig .tc := ⟨.hbm, 49, rfl⟩
abbrev main_v32 : Ref sig .tc := ⟨.hbm, 50, rfl⟩
abbrev main_v33 : Ref sig .tc := ⟨.hbm, 51, rfl⟩
abbrev main_c_7 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_cst_8 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_call1_cst : Ref sig .tc := ⟨.hbm, 68, rfl⟩
abbrev main_call1_v0 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_cst_9 : Ref sig .tc := ⟨.hbm, 75, rfl⟩
abbrev main_v53 : Ref sig .tc := ⟨.hbm, 76, rfl⟩
abbrev main_cst_10 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_cst_11 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_cst_12 : Ref sig .tc := ⟨.hbm, 85, rfl⟩
abbrev main_call2_v0 : Ref sig .tc := ⟨.hbm, 86, rfl⟩
abbrev main_call2_v1 : Ref sig .tc := ⟨.hbm, 87, rfl⟩
abbrev main_v60 : Ref sig .tc := ⟨.hbm, 88, rfl⟩
abbrev main_c_13 : Ref sig .tc := ⟨.hbm, 89, rfl⟩
abbrev main_v61 : Ref sig .tc := ⟨.hbm, 90, rfl⟩
abbrev main_v62 : Ref sig .tc := ⟨.hbm, 91, rfl⟩
abbrev main_c_14 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_c_15 : Ref sig .tc := ⟨.hbm, 99, rfl⟩
abbrev main_v69 : Ref sig .tc := ⟨.hbm, 100, rfl⟩
abbrev main_v70 : Ref sig .tc := ⟨.hbm, 101, rfl⟩
abbrev main_c_16 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_c_17 : Ref sig .tc := ⟨.hbm, 109, rfl⟩
abbrev main_v77 : Ref sig .tc := ⟨.hbm, 110, rfl⟩
abbrev main_v78 : Ref sig .tc := ⟨.hbm, 111, rfl⟩
abbrev main_c_18 : Ref sig .tc := ⟨.hbm, 112, rfl⟩
abbrev main_v79 : Ref sig .tc := ⟨.hbm, 113, rfl⟩
abbrev main_v80 : Ref sig .tc := ⟨.hbm, 114, rfl⟩
abbrev main_v81 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩
abbrev main_cst_19 : Ref sig .tc := ⟨.hbm, 121, rfl⟩
abbrev main_v87 : Ref sig .tc := ⟨.hbm, 122, rfl⟩
abbrev main_v88 : Ref sig .tc := ⟨.hbm, 123, rfl⟩
abbrev main_v89 : Ref sig .tc := ⟨.hbm, 124, rfl⟩
abbrev main_v90 : Ref sig .tc := ⟨.hbm, 125, rfl⟩
abbrev main_v91 : Ref sig .tc := ⟨.hbm, 126, rfl⟩
abbrev main_v92 : Ref sig .tc := ⟨.hbm, 127, rfl⟩
abbrev main_v93 : Ref sig .tc := ⟨.hbm, 128, rfl⟩
abbrev main_v94 : Ref sig .tc := ⟨.hbm, 129, rfl⟩
abbrev main_v95 : Ref sig .tc := ⟨.hbm, 130, rfl⟩
abbrev main_v96 : Ref sig .tc := ⟨.hbm, 131, rfl⟩
abbrev main_v97 : Ref sig .tc := ⟨.hbm, 132, rfl⟩
abbrev main_v98 : Ref sig .tc := ⟨.hbm, 133, rfl⟩
abbrev main_c_20 : Ref sig .tc := ⟨.hbm, 134, rfl⟩
abbrev main_v99 : Ref sig .tc := ⟨.hbm, 135, rfl⟩
abbrev main_v100 : Ref sig .tc := ⟨.hbm, 136, rfl⟩
abbrev main_c_21 : Ref sig .tc := ⟨.hbm, 137, rfl⟩
abbrev main_v101 : Ref sig .tc := ⟨.hbm, 138, rfl⟩
abbrev main_v102 : Ref sig .tc := ⟨.hbm, 139, rfl⟩
abbrev main_v103 : Ref sig .tc := ⟨.hbm, 140, rfl⟩
abbrev main_v104 : Ref sig .tc := ⟨.hbm, 141, rfl⟩
abbrev main_v105 : Ref sig .tc := ⟨.hbm, 142, rfl⟩
abbrev main_c_22 : Ref sig .tc := ⟨.hbm, 143, rfl⟩
abbrev main_v106 : Ref sig .tc := ⟨.hbm, 144, rfl⟩
abbrev main_v107 : Ref sig .tc := ⟨.hbm, 145, rfl⟩
abbrev main_c_23 : Ref sig .tc := ⟨.hbm, 146, rfl⟩
abbrev main_v108 : Ref sig .tc := ⟨.hbm, 147, rfl⟩
abbrev main_v109 : Ref sig .tc := ⟨.hbm, 148, rfl⟩
abbrev main_v110 : Ref sig .tc := ⟨.hbm, 149, rfl⟩
abbrev main_v111 : Ref sig .tc := ⟨.hbm, 150, rfl⟩
abbrev main_v112 : Ref sig .tc := ⟨.hbm, 151, rfl⟩
abbrev main_v113 : Ref sig .tc := ⟨.hbm, 152, rfl⟩
abbrev main_cst_24 : Ref sig .tc := ⟨.hbm, 153, rfl⟩
abbrev main_v114 : Ref sig .tc := ⟨.hbm, 154, rfl⟩
abbrev main_cst_25 : Ref sig .tc := ⟨.hbm, 155, rfl⟩
abbrev main_v115 : Ref sig .tc := ⟨.hbm, 156, rfl⟩
abbrev main_v116 : Ref sig .tc := ⟨.hbm, 157, rfl⟩
abbrev main_v117 : Ref sig .tc := ⟨.hbm, 158, rfl⟩
abbrev main_v118 : Ref sig .tc := ⟨.hbm, 159, rfl⟩
abbrev main_cst_26 : Ref sig .tc := ⟨.hbm, 160, rfl⟩
abbrev main_v119 : Ref sig .tc := ⟨.hbm, 161, rfl⟩
abbrev main_cst_27 : Ref sig .tc := ⟨.hbm, 162, rfl⟩
abbrev main_v120 : Ref sig .tc := ⟨.hbm, 163, rfl⟩
abbrev main_v121 : Ref sig .tc := ⟨.hbm, 164, rfl⟩
abbrev main_v122 : Ref sig .tc := ⟨.hbm, 165, rfl⟩
abbrev main_v123 : Ref sig .tc := ⟨.hbm, 166, rfl⟩
abbrev main_v124 : Ref sig .tc := ⟨.hbm, 167, rfl⟩
abbrev main_v125 : Ref sig .tc := ⟨.hbm, 168, rfl⟩
abbrev main_v126 : Ref sig .tc := ⟨.hbm, 169, rfl⟩
abbrev main_c_28 : Ref sig .tc := ⟨.hbm, 170, rfl⟩
abbrev main_v127 : Ref sig .tc := ⟨.hbm, 171, rfl⟩
abbrev main_v128 : Ref sig .tc := ⟨.hbm, 172, rfl⟩
abbrev main_c_29 : Ref sig .tc := ⟨.hbm, 173, rfl⟩
abbrev main_v129 : Ref sig .tc := ⟨.hbm, 174, rfl⟩
abbrev main_v130 : Ref sig .tc := ⟨.hbm, 175, rfl⟩
abbrev main_v131 : Ref sig .tc := ⟨.hbm, 176, rfl⟩
abbrev main_v132 : Ref sig .tc := ⟨.hbm, 177, rfl⟩
abbrev main_v133 : Ref sig .tc := ⟨.hbm, 178, rfl⟩
abbrev main_c_30 : Ref sig .tc := ⟨.hbm, 179, rfl⟩
abbrev main_v134 : Ref sig .tc := ⟨.hbm, 180, rfl⟩
abbrev main_v135 : Ref sig .tc := ⟨.hbm, 181, rfl⟩
abbrev main_c_31 : Ref sig .tc := ⟨.hbm, 182, rfl⟩
abbrev main_v136 : Ref sig .tc := ⟨.hbm, 183, rfl⟩
abbrev main_v137 : Ref sig .tc := ⟨.hbm, 184, rfl⟩
abbrev main_v138 : Ref sig .tc := ⟨.hbm, 185, rfl⟩
abbrev main_v139 : Ref sig .tc := ⟨.hbm, 186, rfl⟩
abbrev main_v140 : Ref sig .tc := ⟨.hbm, 187, rfl⟩
abbrev main_v141 : Ref sig .tc := ⟨.hbm, 188, rfl⟩
abbrev main_cst_32 : Ref sig .tc := ⟨.hbm, 189, rfl⟩
abbrev main_v142 : Ref sig .tc := ⟨.hbm, 190, rfl⟩
abbrev main_cst_33 : Ref sig .tc := ⟨.hbm, 191, rfl⟩
abbrev main_v143 : Ref sig .tc := ⟨.hbm, 192, rfl⟩
abbrev main_v144 : Ref sig .tc := ⟨.hbm, 193, rfl⟩
abbrev main_v145 : Ref sig .tc := ⟨.hbm, 194, rfl⟩
abbrev main_v146 : Ref sig .tc := ⟨.hbm, 195, rfl⟩
abbrev main_cst_34 : Ref sig .tc := ⟨.hbm, 196, rfl⟩
abbrev main_v147 : Ref sig .tc := ⟨.hbm, 197, rfl⟩
abbrev main_cst_35 : Ref sig .tc := ⟨.hbm, 198, rfl⟩
abbrev main_v148 : Ref sig .tc := ⟨.hbm, 199, rfl⟩
abbrev main_v149 : Ref sig .tc := ⟨.hbm, 200, rfl⟩
abbrev main_cst_36 : Ref sig .tc := ⟨.hbm, 201, rfl⟩
abbrev main_v150 : Ref sig .tc := ⟨.hbm, 202, rfl⟩
abbrev main_v151 : Ref sig .tc := ⟨.hbm, 203, rfl⟩
abbrev main_v152 : Ref sig .tc := ⟨.hbm, 204, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S10000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  inb_S10000x128_S10000x128_0_0 : ∀ a, (![0, 0] : Fin 2 → Nat) a + S10000x128.size a ≤ S10000x128.size a
  h_S10000x128 : 0 < S10000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  concatenates_S1600000_S100000_S1700000_d0 : Shape.Concatenates [S1600000, S100000] S1700000 0
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  shapeCasts_S10000x128_S10000x128 : S10000x128.ShapeCasts S10000x128
  bcast_S_S1600000 : S_.BroadcastsInDim S1600000 (![] : Fin 0 → Fin S1600000.rank)
  bcast_S1600000_S1600000x1_0 : S1600000.BroadcastsInDim S1600000x1 (![0] : Fin 1 → Fin S1600000x1.rank)
  reducesTo_S1600000x128_S1600000_d1 : S1600000x128.ReducesTo [1] S1600000
  h_S_ : 0 < S_.numel
  reducesTo_S1600000_S_d0 : S1600000.ReducesTo [0] S_
  slices_S2x500000_S1x500000_0_0 : S2x500000.Slices ![0, 0] S1x500000
  shapeCasts_S1x500000_S500000 : S1x500000.ShapeCasts S500000
  slices_S2x500000_S1x500000_1_0 : S2x500000.Slices ![1, 0] S1x500000
  bcast_S_S500000 : S_.BroadcastsInDim S500000 (![] : Fin 0 → Fin S500000.rank)
  bcast_S500000_S500000x1_0 : S500000.BroadcastsInDim S500000x1 (![0] : Fin 1 → Fin S500000x1.rank)
  reducesTo_S500000x128_S500000_d1 : S500000x128.ReducesTo [1] S500000
  reducesTo_S500000_S_d0 : S500000.ReducesTo [0] S_
  dot_S10000x128_S128x128_S10000x128_1_0_0_1_n_n_wf : DotDims.WF S10000x128 S128x128 S10000x128 [1] [0] [0] [1] [] []
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  gather_S100000x128_S1600000x1_S1600000x128_1_0_n_n_0_1_1128_wf : GatherDims.WF S100000x128 S1600000x1 S1600000x128 [1] [0] [] [0] [] 1 ![1, 128]
  gather_S100000x128_S500000x1_S500000x128_1_0_n_n_0_1_1128_wf : GatherDims.WF S100000x128 S500000x1 S500000x128 [1] [0] [] [0] [] 1 ![1, 128]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S100000x128.size a
  hwx0_0 : ∀ i : grid0.Coords, EltTy.bits .f32 = 32 ∨ (Rect.block (s := S100000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x128.size a ≤ S100000x128.size a
  hwx0_2 : ∀ i : grid0.Coords, EltTy.bits .f32 = 32 ∨ (Rect.block (s := S100000x128) S10000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x128.size a ≤ S100000x128.size a
  hwx1_0 : ∀ i : grid1.Coords, EltTy.bits .f32 = 32 ∨ (Rect.block (s := S100000x128) S10000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x128.size a ≤ S128x128.size a
  hwx1_1 : ∀ i : grid1.Coords, EltTy.bits .f32 = 32 ∨ (Rect.block (s := S128x128) S128x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x128.size a ≤ S100000x128.size a
  hwx1_2 : ∀ i : grid1.Coords, EltTy.bits .f32 = 32 ∨ (Rect.block (s := S100000x128) S10000x128.size (cc1_transform_2 i) (hinb1_2 i)).WholeWords (EltTy.packing .f32)

variable [Facts₀]

def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def gather_S100000x128_S500000x1_S500000x128_1_0_n_n_0_1_1128 : GatherDims S100000x128 S500000x1 S500000x128 where
  offsetDims := [1]
  collapsedSliceDims := [0]
  operandBatchingDims := []
  startIndicesBatchingDims := []
  startIndexMap := [0]
  indexVectorDim := 1
  sliceSizes := ![1, 128]
  wf := gather_S100000x128_S500000x1_S500000x128_1_0_n_n_0_1_1128_wf

abbrev win0_0 : Pipeline.Window sig grid0 :=
  Pipeline.Window.ofSpec (Memref.whole main_arg0) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S10000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v48) S10000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg5) S128x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v49) S10000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S2x500000 : Shape := ⟨2, ![2, 500000]⟩
abbrev S128x128 : Shape := ⟨2, ![128, 128]⟩
abbrev S128 : Shape := ⟨1, ![128]⟩
abbrev S1x1600000 : Shape := ⟨2, ![1, 1600000]⟩
abbrev S1600000 : Shape := ⟨1, ![1600000]⟩
abbrev S100000 : Shape := ⟨1, ![100000]⟩
abbrev S1700000 : Shape := ⟨1, ![1700000]⟩
abbrev S_ : Shape := ⟨0, ![]⟩
abbrev S1700000x1 : Shape := ⟨2, ![1700000, 1]⟩
abbrev S1700000x128 : Shape := ⟨2, ![1700000, 128]⟩
abbrev S1x128 : Shape := ⟨2, ![1, 128]⟩
abbrev S1600000x1 : Shape := ⟨2, ![1600000, 1]⟩
abbrev S1600000x128 : Shape := ⟨2, ![1600000, 128]⟩
abbrev S1x500000 : Shape := ⟨2, ![1, 500000]⟩
abbrev S500000 : Shape := ⟨1, ![500000]⟩
abbrev S500000x1 : Shape := ⟨2, ![500000, 1]⟩
abbrev S500000x128 : Shape := ⟨2, ![500000, 128]⟩

abbrev nBuf : Space → Nat
  | .hbm => 213
  | .vmem => 0
  | .smem => 0
  | _ => 0

abbrev hbmTy0_0 (i : Nat) : BufTy := match i % 128 with
  | 0 => ⟨S100000x128, .f32⟩
  | 1 => ⟨S2x1600000, .i32⟩
  | 2 => ⟨S2x500000, .i32⟩
  | 3 => ⟨S128x128, .f32⟩
  | 4 => ⟨S128, .f32⟩
  | 5 => ⟨S128x128, .f32⟩
  | 6 => ⟨S128, .f32⟩
  | 7 => ⟨S1x1600000, .i32⟩
  | 8 => ⟨S1600000, .i32⟩
  | 9 => ⟨S1x1600000, .i32⟩
  | 10 => ⟨S1600000, .i32⟩
  | 11 => ⟨S100000x128, .f32⟩
  | 12 => ⟨S100000, .i32⟩
  | 13 => ⟨S1700000, .i32⟩
  | 14 => ⟨S1700000, .i32⟩
  | 15 => ⟨S_, .f32⟩
  | 16 => ⟨S1700000, .f32⟩
  | 17 => ⟨S_, .f32⟩
  | 18 => ⟨S100000, .f32⟩
  | 19 => ⟨S1700000x1, .i32⟩
  | 20 => ⟨S100000, .f32⟩
  | 21 => ⟨S_, .f32⟩
  | 22 => ⟨S100000, .f32⟩
  | 23 => ⟨S100000, .i1⟩
  | 24 => ⟨S100000, .f32⟩
  | 25 => ⟨S_, .f32⟩
  | 26 => ⟨S_, .f32⟩
  | 27 => ⟨S100000, .f32⟩
  | 28 => ⟨S100000, .f32⟩
  | 29 => ⟨S_, .i32⟩
  | 30 => ⟨S1700000, .i32⟩
  | 31 => ⟨S1700000, .i1⟩
  | 32 => ⟨S_, .i32⟩
  | 33 => ⟨S1700000, .i32⟩
  | 34 => ⟨S1700000, .i32⟩
  | 35 => ⟨S1700000, .i32⟩
  | 36 => ⟨S1700000x1, .i32⟩
  | 37 => ⟨S1700000, .f32⟩
  | 38 => ⟨S1700000, .f32⟩
  | 39 => ⟨S_, .i32⟩
  | 40 => ⟨S1700000, .i32⟩
  | 41 => ⟨S1700000, .i1⟩
  | 42 => ⟨S_, .i32⟩
  | 43 => ⟨S1700000, .i32⟩
  | 44 => ⟨S1700000, .i32⟩
  | 45 => ⟨S1700000, .i32⟩
  | 46 => ⟨S1700000x1, .i32⟩
  | 47 => ⟨S1700000, .f32⟩
  | 48 => ⟨S1700000, .f32⟩
  | 49 => ⟨S_, .i32⟩
  | 50 => ⟨S1700000, .i32⟩
  | 51 => ⟨S1700000, .i1⟩
  | 52 => ⟨S_, .i32⟩
  | 53 => ⟨S1700000, .i32⟩
  | 54 => ⟨S1700000, .i32⟩
  | 55 => ⟨S1700000, .i32⟩
  | 56 => ⟨S1700000x1, .i32⟩
  | 57 => ⟨S1700000x128, .f32⟩
  | 58 => ⟨S1700000x1, .f32⟩
  | 59 => ⟨S1700000x128, .f32⟩
  | 60 => ⟨S1700000x128, .f32⟩
  | 61 => ⟨S_, .f32⟩
  | 62 => ⟨S100000x128, .f32⟩
  | 63 => ⟨S1700000x1, .i32⟩
  | 64 => ⟨S100000x128, .f32⟩
  | 65 => ⟨S1x128, .f32⟩
  | 66 => ⟨S100000x128, .f32⟩
  | 67 => ⟨S100000x128, .f32⟩
  | 68 => ⟨S_, .f32⟩
  | 69 => ⟨S100000x128, .f32⟩
  | 70 => ⟨S100000x128, .f32⟩
  | 71 => ⟨S100000x128, .f32⟩
  | 72 => ⟨S100000, .i32⟩
  | 73 => ⟨S1700000, .i32⟩
  | 74 => ⟨S1700000, .i32⟩
  | 75 => ⟨S_, .f32⟩
  | 76 => ⟨S1700000, .f32⟩
  | 77 => ⟨S_, .f32⟩
  | 78 => ⟨S100000, .f32⟩
  | 79 => ⟨S1700000x1, .i32⟩
  | 80 => ⟨S100000, .f32⟩
  | 81 => ⟨S_, .f32⟩
  | 82 => ⟨S100000, .f32⟩
  | 83 => ⟨S100000, .i1⟩
  | 84 => ⟨S100000, .f32⟩
  | 85 => ⟨S_, .f32⟩
  | 86 => ⟨S_, .f32⟩
  | 87 => ⟨S100000, .f32⟩
  | 88 => ⟨S100000, .f32⟩
  | 89 => ⟨S_, .i32⟩
  | 90 => ⟨S1700000, .i32⟩
  | 91 => ⟨S1700000, .i1⟩
  | 92 => ⟨S_, .i32⟩
  | 93 => ⟨S1700000, .i32⟩
  | 94 => ⟨S1700000, .i32⟩
  | 95 => ⟨S1700000, .i32⟩
  | 96 => ⟨S1700000x1, .i32⟩
  | 97 => ⟨S1700000, .f32⟩
  | 98 => ⟨S1700000, .f32⟩
  | 99 => ⟨S_, .i32⟩
  | 100 => ⟨S1700000, .i32⟩
  | 101 => ⟨S1700000, .i1⟩
  | 102 => ⟨S_, .i32⟩
  | 103 => ⟨S1700000, .i32⟩
  | 104 => ⟨S1700000, .i32⟩
  | 105 => ⟨S1700000, .i32⟩
  | 106 => ⟨S1700000x1, .i32⟩
  | 107 => ⟨S1700000, .f32⟩
  | 108 => ⟨S1700000, .f32⟩
  | 109 => ⟨S_, .i32⟩
  | 110 => ⟨S1700000, .i32⟩
  | 111 => ⟨S1700000, .i1⟩
  | 112 => ⟨S_, .i32⟩
  | 113 => ⟨S1700000, .i32⟩
  | 114 => ⟨S1700000, .i32⟩
  | 115 => ⟨S1700000, .i32⟩
  | 116 => ⟨S1700000x1, .i32⟩
  | 117 => ⟨S1700000x128, .f32⟩
  | 118 => ⟨S1700000x1, .f32⟩
  | 119 => ⟨S1700000x128, .f32⟩
  | 120 => ⟨S1700000x128, .f32⟩
  | 121 => ⟨S_, .f32⟩
  | 122 => ⟨S100000x128, .f32⟩
  | 123 => ⟨S1700000x1, .i32⟩
  | 124 => ⟨S100000x128, .f32⟩
  | 125 => ⟨S1x128, .f32⟩
  | 126 => ⟨S100000x128, .f32⟩
  | 127 => ⟨S100000x128, .f32⟩
  | _ => ⟨S100000x128, .f32⟩

abbrev hbmTy0_1 (i : Nat) : BufTy := match i % 128 with
  | 0 => ⟨S1x1600000, .i32⟩
  | 1 => ⟨S1600000, .i32⟩
  | 2 => ⟨S1x1600000, .i32⟩
  | 3 => ⟨S1600000, .i32⟩
  | 4 => ⟨S1600000, .i1⟩
  | 5 => ⟨S1600000, .f32⟩
  | 6 => ⟨S1x1600000, .i32⟩
  | 7 => ⟨S1600000, .i32⟩
  | 8 => ⟨S_, .i32⟩
  | 9 => ⟨S1600000, .i32⟩
  | 10 => ⟨S1600000, .i1⟩
  | 11 => ⟨S_, .i32⟩
  | 12 => ⟨S1600000, .i32⟩
  | 13 => ⟨S1600000, .i32⟩
  | 14 => ⟨S1600000, .i32⟩
  | 15 => ⟨S1600000x1, .i32⟩
  | 16 => ⟨S1600000x128, .f32⟩
  | 17 => ⟨S1x1600000, .i32⟩
  | 18 => ⟨S1600000, .i32⟩
  | 19 => ⟨S_, .i32⟩
  | 20 => ⟨S1600000, .i32⟩
  | 21 => ⟨S1600000, .i1⟩
  | 22 => ⟨S_, .i32⟩
  | 23 => ⟨S1600000, .i32⟩
  | 24 => ⟨S1600000, .i32⟩
  | 25 => ⟨S1600000, .i32⟩
  | 26 => ⟨S1600000x1, .i32⟩
  | 27 => ⟨S1600000x128, .f32⟩
  | 28 => ⟨S1600000x128, .f32⟩
  | 29 => ⟨S_, .f32⟩
  | 30 => ⟨S1600000, .f32⟩
  | 31 => ⟨S_, .f32⟩
  | 32 => ⟨S1600000, .f32⟩
  | 33 => ⟨S1600000, .f32⟩
  | 34 => ⟨S1600000, .f32⟩
  | 35 => ⟨S1600000, .f32⟩
  | 36 => ⟨S_, .f32⟩
  | 37 => ⟨S_, .f32⟩
  | 38 => ⟨S_, .f32⟩
  | 39 => ⟨S_, .f32⟩
  | 40 => ⟨S1x500000, .i32⟩
  | 41 => ⟨S500000, .i32⟩
  | 42 => ⟨S1x500000, .i32⟩
  | 43 => ⟨S500000, .i32⟩
  | 44 => ⟨S500000, .i1⟩
  | 45 => ⟨S500000, .f32⟩
  | 46 => ⟨S1x500000, .i32⟩
  | 47 => ⟨S500000, .i32⟩
  | 48 => ⟨S_, .i32⟩
  | 49 => ⟨S500000, .i32⟩
  | 50 => ⟨S500000, .i1⟩
  | 51 => ⟨S_, .i32⟩
  | 52 => ⟨S500000, .i32⟩
  | 53 => ⟨S500000, .i32⟩
  | 54 => ⟨S500000, .i32⟩
  | 55 => ⟨S500000x1, .i32⟩
  | 56 => ⟨S500000x128, .f32⟩
  | 57 => ⟨S1x500000, .i32⟩
  | 58 => ⟨S500000, .i32⟩
  | 59 => ⟨S_, .i32⟩
  | 60 => ⟨S500000, .i32⟩
  | 61 => ⟨S500000, .i1⟩
  | 62 => ⟨S_, .i32⟩
  | 63 => ⟨S500000, .i32⟩
  | 64 => ⟨S500000, .i32⟩
  | 65 => ⟨S500000, .i32⟩
  | 66 => ⟨S500000x1, .i32⟩
  | 67 => ⟨S500000x128, .f32⟩
  | 68 => ⟨S500000x128, .f32⟩
  | 69 => ⟨S_, .f32⟩
  | 70 => ⟨S500000, .f32⟩
  | 71 => ⟨S_, .f32⟩
  | 72 => ⟨S500000, .f32⟩
  | 73 => ⟨S500000, .f32⟩
  | 74 => ⟨S500000, .f32⟩
  | 75 => ⟨S500000, .f32⟩
  | 76 => ⟨S_, .f32⟩
  | 77 => ⟨S_, .f32⟩
  | 78 => ⟨S_, .f32⟩
  | 79 => ⟨S_, .f32⟩
  | 80 => ⟨S_, .f32⟩
  | 81 => ⟨S_, .f32⟩
  | 82 => ⟨S_, .f32⟩
  | 83 => ⟨S_, .f32⟩
  | 84 => ⟨S_, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst : Ref sig .tc := ⟨.hbm, 15, rfl⟩
abbrev main_v8 : Ref sig .tc := ⟨.hbm, 16, rfl⟩
abbrev main_cst_0 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_1 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_2 : Ref sig .tc := ⟨.hbm, 25, rfl⟩
abbrev main_call0_v0 : Ref sig .tc := ⟨.hbm, 26, rfl⟩
abbrev main_call0_v1 : Ref sig .tc := ⟨.hbm, 27, rfl⟩
abbrev main_v15 : Ref sig .tc := ⟨.hbm, 28, rfl⟩
abbrev main_c : Ref sig .tc := ⟨.hbm, 29, rfl⟩
abbrev main_v16 : Ref sig .tc := ⟨.hbm, 30, rfl⟩
abbrev main_v17 : Ref sig .tc := ⟨.hbm, 31, rfl⟩
abbrev main_c_3 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_c_4 : Ref sig .tc := ⟨.hbm, 39, rfl⟩
abbrev main_v24 : Ref sig .tc := ⟨.hbm, 40, rfl⟩
abbrev main_v25 : Ref sig .tc := ⟨.hbm, 41, rfl⟩
abbrev main_c_5 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_c_6 : Ref sig .tc := ⟨.hbm, 49, rfl⟩
abbrev main_v32 : Ref sig .tc := ⟨.hbm, 50, rfl⟩
abbrev main_v33 : Ref sig .tc := ⟨.hbm, 51, rfl⟩
abbrev main_c_7 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_cst_8 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_call1_cst : Ref sig .tc := ⟨.hbm, 68, rfl⟩
abbrev main_call1_v0 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_cst_9 : Ref sig .tc := ⟨.hbm, 75, rfl⟩
abbrev main_v53 : Ref sig .tc := ⟨.hbm, 76, rfl⟩
abbrev main_cst_10 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_cst_11 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_cst_12 : Ref sig .tc := ⟨.hbm, 85, rfl⟩
abbrev main_call2_v0 : Ref sig .tc := ⟨.hbm, 86, rfl⟩
abbrev main_call2_v1 : Ref sig .tc := ⟨.hbm, 87, rfl⟩
abbrev main_v60 : Ref sig .tc := ⟨.hbm, 88, rfl⟩
abbrev main_c_13 : Ref sig .tc := ⟨.hbm, 89, rfl⟩
abbrev main_v61 : Ref sig .tc := ⟨.hbm, 90, rfl⟩
abbrev main_v62 : Ref sig .tc := ⟨.hbm, 91, rfl⟩
abbrev main_c_14 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_c_15 : Ref sig .tc := ⟨.hbm, 99, rfl⟩
abbrev main_v69 : Ref sig .tc := ⟨.hbm, 100, rfl⟩
abbrev main_v70 : Ref sig .tc := ⟨.hbm, 101, rfl⟩
abbrev main_c_16 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_c_17 : Ref sig .tc := ⟨.hbm, 109, rfl⟩
abbrev main_v77 : Ref sig .tc := ⟨.hbm, 110, rfl⟩
abbrev main_v78 : Ref sig .tc := ⟨.hbm, 111, rfl⟩
abbrev main_c_18 : Ref sig .tc := ⟨.hbm, 112, rfl⟩
abbrev main_v79 : Ref sig .tc := ⟨.hbm, 113, rfl⟩
abbrev main_v80 : Ref sig .tc := ⟨.hbm, 114, rfl⟩
abbrev main_v81 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩
abbrev main_cst_19 : Ref sig .tc := ⟨.hbm, 121, rfl⟩
abbrev main_v87 : Ref sig .tc := ⟨.hbm, 122, rfl⟩
abbrev main_v88 : Ref sig .tc := ⟨.hbm, 123, rfl⟩
abbrev main_v89 : Ref sig .tc := ⟨.hbm, 124, rfl⟩
abbrev main_v90 : Ref sig .tc := ⟨.hbm, 125, rfl⟩
abbrev main_v91 : Ref sig .tc := ⟨.hbm, 126, rfl⟩
abbrev main_v92 : Ref sig .tc := ⟨.hbm, 127, rfl⟩
abbrev main_v93 : Ref sig .tc := ⟨.hbm, 128, rfl⟩
abbrev main_v94 : Ref sig .tc := ⟨.hbm, 129, rfl⟩
abbrev main_v95 : Ref sig .tc := ⟨.hbm, 130, rfl⟩
abbrev main_v96 : Ref sig .tc := ⟨.hbm, 131, rfl⟩
abbrev main_v97 : Ref sig .tc := ⟨.hbm, 132, rfl⟩
abbrev main_v98 : Ref sig .tc := ⟨.hbm, 133, rfl⟩
abbrev main_v99 : Ref sig .tc := ⟨.hbm, 134, rfl⟩
abbrev main_v100 : Ref sig .tc := ⟨.hbm, 135, rfl⟩
abbrev main_c_20 : Ref sig .tc := ⟨.hbm, 136, rfl⟩
abbrev main_v101 : Ref sig .tc := ⟨.hbm, 137, rfl⟩
abbrev main_v102 : Ref sig .tc := ⟨.hbm, 138, rfl⟩
abbrev main_c_21 : Ref sig .tc := ⟨.hbm, 139, rfl⟩
abbrev main_v103 : Ref sig .tc := ⟨.hbm, 140, rfl⟩
abbrev main_v104 : Ref sig .tc := ⟨.hbm, 141, rfl⟩
abbrev main_v105 : Ref sig .tc := ⟨.hbm, 142, rfl⟩
abbrev main_v106 : Ref sig .tc := ⟨.hbm, 143, rfl⟩
abbrev main_v107 : Ref sig .tc := ⟨.hbm, 144, rfl⟩
abbrev main_v108 : Ref sig .tc := ⟨.hbm, 145, rfl⟩
abbrev main_v109 : Ref sig .tc := ⟨.hbm, 146, rfl⟩
abbrev main_c_22 : Ref sig .tc := ⟨.hbm, 147, rfl⟩
abbrev main_v110 : Ref sig .tc := ⟨.hbm, 148, rfl⟩
abbrev main_v111 : Ref sig .tc := ⟨.hbm, 149, rfl⟩
abbrev main_c_23 : Ref sig .tc := ⟨.hbm, 150, rfl⟩
abbrev main_v112 : Ref sig .tc := ⟨.hbm, 151, rfl⟩
abbrev main_v113 : Ref sig .tc := ⟨.hbm, 152, rfl⟩
abbrev main_v114 : Ref sig .tc := ⟨.hbm, 153, rfl⟩
abbrev main_v115 : Ref sig .tc := ⟨.hbm, 154, rfl⟩
abbrev main_v116 : Ref sig .tc := ⟨.hbm, 155, rfl⟩
abbrev main_v117 : Ref sig .tc := ⟨.hbm, 156, rfl⟩
abbrev main_cst_24 : Ref sig .tc := ⟨.hbm, 157, rfl⟩
abbrev main_v118 : Ref sig .tc := ⟨.hbm, 158, rfl⟩
abbrev main_cst_25 : Ref sig .tc := ⟨.hbm, 159, rfl⟩
abbrev main_v119 : Ref sig .tc := ⟨.hbm, 160, rfl⟩
abbrev main_v120 : Ref sig .tc := ⟨.hbm, 161, rfl⟩
abbrev main_v121 : Ref sig .tc := ⟨.hbm, 162, rfl⟩
abbrev main_v122 : Ref sig .tc := ⟨.hbm, 163, rfl⟩
abbrev main_cst_26 : Ref sig .tc := ⟨.hbm, 164, rfl⟩
abbrev main_v123 : Ref sig .tc := ⟨.hbm, 165, rfl⟩
abbrev main_cst_27 : Ref sig .tc := ⟨.hbm, 166, rfl⟩
abbrev main_v124 : Ref sig .tc := ⟨.hbm, 167, rfl⟩
abbrev main_v125 : Ref sig .tc := ⟨.hbm, 168, rfl⟩
abbrev main_v126 : Ref sig .tc := ⟨.hbm, 169, rfl⟩
abbrev main_v127 : Ref sig .tc := ⟨.hbm, 170, rfl⟩
abbrev main_v128 : Ref sig .tc := ⟨.hbm, 171, rfl⟩
abbrev main_v129 : Ref sig .tc := ⟨.hbm, 172, rfl⟩
abbrev main_v130 : Ref sig .tc := ⟨.hbm, 173, rfl⟩
abbrev main_v131 : Ref sig .tc := ⟨.hbm, 174, rfl⟩
abbrev main_v132 : Ref sig .tc := ⟨.hbm, 175, rfl⟩
abbrev main_c_28 : Ref sig .tc := ⟨.hbm, 176, rfl⟩
abbrev main_v133 : Ref sig .tc := ⟨.hbm, 177, rfl⟩
abbrev main_v134 : Ref sig .tc := ⟨.hbm, 178, rfl⟩
abbrev main_c_29 : Ref sig .tc := ⟨.hbm, 179, rfl⟩
abbrev main_v135 : Ref sig .tc := ⟨.hbm, 180, rfl⟩
abbrev main_v136 : Ref sig .tc := ⟨.hbm, 181, rfl⟩
abbrev main_v137 : Ref sig .tc := ⟨.hbm, 182, rfl⟩
abbrev main_v138 : Ref sig .tc := ⟨.hbm, 183, rfl⟩
abbrev main_v139 : Ref sig .tc := ⟨.hbm, 184, rfl⟩
abbrev main_v140 : Ref sig .tc := ⟨.hbm, 185, rfl⟩
abbrev main_v141 : Ref sig .tc := ⟨.hbm, 186, rfl⟩
abbrev main_c_30 : Ref sig .tc := ⟨.hbm, 187, rfl⟩
abbrev main_v142 : Ref sig .tc := ⟨.hbm, 188, rfl⟩
abbrev main_v143 : Ref sig .tc := ⟨.hbm, 189, rfl⟩
abbrev main_c_31 : Ref sig .tc := ⟨.hbm, 190, rfl⟩
abbrev main_v144 : Ref sig .tc := ⟨.hbm, 191, rfl⟩
abbrev main_v145 : Ref sig .tc := ⟨.hbm, 192, rfl⟩
abbrev main_v146 : Ref sig .tc := ⟨.hbm, 193, rfl⟩
abbrev main_v147 : Ref sig .tc := ⟨.hbm, 194, rfl⟩
abbrev main_v148 : Ref sig .tc := ⟨.hbm, 195, rfl⟩
abbrev main_v149 : Ref sig .tc := ⟨.hbm, 196, rfl⟩
abbrev main_cst_32 : Ref sig .tc := ⟨.hbm, 197, rfl⟩
abbrev main_v150 : Ref sig .tc := ⟨.hbm, 198, rfl⟩
abbrev main_cst_33 : Ref sig .tc := ⟨.hbm, 199, rfl⟩
abbrev main_v151 : Ref sig .tc := ⟨.hbm, 200, rfl⟩
abbrev main_v152 : Ref sig .tc := ⟨.hbm, 201, rfl⟩
abbrev main_v153 : Ref sig .tc := ⟨.hbm, 202, rfl⟩
abbrev main_v154 : Ref sig .tc := ⟨.hbm, 203, rfl⟩
abbrev main_cst_34 : Ref sig .tc := ⟨.hbm, 204, rfl⟩
abbrev main_v155 : Ref sig .tc := ⟨.hbm, 205, rfl⟩
abbrev main_cst_35 : Ref sig .tc := ⟨.hbm, 206, rfl⟩
abbrev main_v156 : Ref sig .tc := ⟨.hbm, 207, rfl⟩
abbrev main_v157 : Ref sig .tc := ⟨.hbm, 208, rfl⟩
abbrev main_cst_36 : Ref sig .tc := ⟨.hbm, 209, rfl⟩
abbrev main_v158 : Ref sig .tc := ⟨.hbm, 210, rfl⟩
abbrev main_v159 : Ref sig .tc := ⟨.hbm, 211, rfl⟩
abbrev main_v160 : Ref sig .tc := ⟨.hbm, 212, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S100000_S1700000_d0 : Shape.Concatenates [S1600000, S100000] S1700000 0
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S1600000 : S_.BroadcastsInDim S1600000 (![] : Fin 0 → Fin S1600000.rank)
  bcast_S1600000_S1600000x1_0 : S1600000.BroadcastsInDim S1600000x1 (![0] : Fin 1 → Fin S1600000x1.rank)
  reducesTo_S1600000x128_S1600000_d1 : S1600000x128.ReducesTo [1] S1600000
  h_S_ : 0 < S_.numel
  reducesTo_S1600000_S_d0 : S1600000.ReducesTo [0] S_
  slices_S2x500000_S1x500000_0_0 : S2x500000.Slices ![0, 0] S1x500000
  shapeCasts_S1x500000_S500000 : S1x500000.ShapeCasts S500000
  slices_S2x500000_S1x500000_1_0 : S2x500000.Slices ![1, 0] S1x500000
  bcast_S_S500000 : S_.BroadcastsInDim S500000 (![] : Fin 0 → Fin S500000.rank)
  bcast_S500000_S500000x1_0 : S500000.BroadcastsInDim S500000x1 (![0] : Fin 1 → Fin S500000x1.rank)
  reducesTo_S500000x128_S500000_d1 : S500000x128.ReducesTo [1] S500000
  reducesTo_S500000_S_d0 : S500000.ReducesTo [0] S_
  dot_S100000x128_S128x128_S100000x128_1_0_0_1_n_n_wf : DotDims.WF S100000x128 S128x128 S100000x128 [1] [0] [0] [1] [] []
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  gather_S100000x128_S1600000x1_S1600000x128_1_0_n_n_0_1_1128_wf : GatherDims.WF S100000x128 S1600000x1 S1600000x128 [1] [0] [] [0] [] 1 ![1, 128]
  gather_S100000x128_S500000x1_S500000x128_1_0_n_n_0_1_1128_wf : GatherDims.WF S100000x128 S500000x1 S500000x128 [1] [0] [] [0] [] 1 ![1, 128]

variable [Facts₀]

def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def gather_S100000x128_S500000x1_S500000x128_1_0_n_n_0_1_1128 : GatherDims S100000x128 S500000x1 S500000x128 where
  offsetDims := [1]
  collapsedSliceDims := [0]
  operandBatchingDims := []
  startIndicesBatchingDims := []
  startIndexMap := [0]
  indexVectorDim := 1
  sliceSizes := ![1, 128]
  wf := gather_S100000x128_S500000x1_S500000x128_1_0_n_n_0_1_1128_wf

class Facts : Prop extends Facts₀ where

variable [Facts]
-- ==== Proof.KernelRun.lean ====
/-
  The idealized kernel's run with its two results kept.

  The program is a chain of ten segments: stretches of host operations and two kernel regions.  The contents of every
  buffer at each boundary between segments is a fold from the launch memory; at the last boundary it is `W10`.  Every
  weakly fair execution terminates, and in the final memory every unscoped buffer holds what the last boundary says.
  Read at the two result buffers and at the seven arguments, that is the statement below.
-/
import proofs.«155977_j69836168233271_2_alg».proof.Proof.Gen.KernelIdeal.Frame

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the idealized kernel terminates, nothing faulting; the two results end at the last
    boundary's contents and the arguments end as launched. -/
theorem run : θ_run defs (onTc (τ := τ) (main (F := F))) ⟨m, fun _ => 0, ρ⟩ (fun r => ∀ c : Dev nD,
      r.2.mem ((c.tc : Thread nD τ).loc main_v92) = W10 m ρ c (Proc.devRef .tc main_v92)
      ∧ r.2.mem ((c.tc : Thread nD τ).loc main_v152) = W10 m ρ c (Proc.devRef .tc main_v152)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m ρ c b)
    (hfin := fun c s' => by
      iintro ⟨⟨Hh, -⟩, HSI⟩
      unfold StableHlo.held
      imodintro
      iapply (pointsTo_read_all (Pipeline.ucRefs τ sig) (fun b => (((c : Thread nD τ)).1, b)) (W10 m ρ c) s')
      isplitl [Hh] <;> iassumption)
    (hQ := fun s h c =>
      ⟨h c _ (mem_uc main_v92 (by decide)),
       h c _ (mem_uc main_v152 (by decide)),
       (h c _ (mem_uc main_arg0 (by decide))).trans (W10_main_arg0 m ρ c),
       (h c _ (mem_uc main_arg1 (by decide))).trans (W10_main_arg1 m ρ c),
       (h c _ (mem_uc main_arg2 (by decide))).trans (W10_main_arg2 m ρ c),
       (h c _ (mem_uc main_arg3 (by decide))).trans (W10_main_arg3 m ρ c),
       (h c _ (mem_uc main_arg4 (by decide))).trans (W10_main_arg4 m ρ c),
       (h c _ (mem_uc main_arg5 (by decide))).trans (W10_main_arg5 m ρ c),
       (h c _ (mem_uc main_arg6 (by decide))).trans (W10_main_arg6 m ρ c)⟩)

end Cert.KernelIdeal.Run

end
-- ==== Proof.Spec.lean ====
/-
  The two-layer graph convolution and its reconstruction loss, as functions of arrays.

  A layer takes node features h [100000,128] already multiplied by its weight matrix, the edge list
  (src, dst : [1600000]) and a bias b [128].  A self-loop is appended for every node, giving 1 700 000 edges
  (s, d).  With deg(n) = number of edges whose target is n, and dinv(n) = deg(n)^(-1/2) where deg(n) > 0 and 0
  elsewhere, the layer's output at node n is

      b + sum over edges e with d(e) = n of  h(s(e)) * (dinv(s(e)) * 1 * dinv(d(e))).

  An index word below zero is first shifted by the number of nodes (negative indexing), which is why every gather reads
  through `wrap`.  The sums over edges are the host's accumulating scatters, kept here as the operations themselves:
  nothing in this file opens them.

  The loss of an edge list E (with target t) is  sum over e in E of  m(e) * (sim(e) - t)^2  where m(e) = 1 when
  E0(e) < E1(e) and 0 otherwise, and sim(e) is the inner product of rows E0(e) and E1(e) of the representation.  The
  square is written in two groupings, (m * d) * d and m * (d * d); `mul_regroup` says they are one array at the
  extended reals, because multiplication there is associative (no finiteness is needed).
-/
import proofs.«155977_j69836168233271_2_alg».proof.Proof.Gen.ReferenceIdeal
import Idealize.ShloMosaic.PureOps.Ideal

noncomputable section

namespace Cert.Gcn

open Idealize.ShloMosaic Cert.ReferenceIdeal Cert.ReferenceIdeal.Gen

variable {F : FTy → Type} [FloatOps F]

/-! ## One layer -/

/-- Row `0` of an edge array `[2, 1600000]`, as a vector. -/
def row0 (e : Vec F S2x1600000 .i32) : Vec F S1600000 .i32 :=
  shapeCast _ (extractStridedSlice S1x1600000 ![0, 0] e slices_S2x1600000_S1x1600000_0_0) shapeCasts_S1x1600000_S1600000

/-- Row `1` of an edge array `[2, 1600000]`, as a vector. -/
def row1 (e : Vec F S2x1600000 .i32) : Vec F S1600000 .i32 :=
  shapeCast _ (extractStridedSlice S1x1600000 ![1, 0] e slices_S2x1600000_S1x1600000_1_0) shapeCasts_S1x1600000_S1600000

/-- The edge endpoints followed by one self-loop per node. -/
def withLoops (v : Vec F S1600000 .i32) : Vec F S1700000 .i32 :=
  concatenate S1700000 0 [⟨S1600000, v⟩, ⟨S100000, (iotaInDim S100000 32 0)⟩] concatenates_S1600000_S100000_S1700000_d0

/-- A node index below zero is shifted by the number of nodes. -/
def wrap (i : Vec F S1700000 .i32) : Vec F S1700000 .i32 :=
  select (cmpi .slt i (broadcastInDim S1700000 ![] bcast_S_S1700000 (constantI S_ 32 0#32)))
    (addi i (broadcastInDim S1700000 ![] bcast_S_S1700000 (constantI S_ 32 100000#32))) i

/-- The weight of every edge: one. -/
def ones : Vec F S1700000 .f32 := broadcastInDim S1700000 ![] bcast_S_S1700000 (constant S_ .f32 0x3F800000#32)

/-- The number of edges arriving at each node. -/
def degree (d : Vec F S1700000 .i32) : Vec F S100000 .f32 :=
  Host.scatterAdd scatter_S100000_S1700000x1_S1700000_n_0_0_1 (broadcastInDim S100000 ![] bcast_S_S100000 (constant S_ .f32 0x00000000#32))
    (broadcastInDim S1700000x1 ![0] bcast_S1700000_S1700000x1_0 d) ones

/-- `deg^(-1/2)` where the degree is positive, zero elsewhere. -/
def invSqrt (deg : Vec F S100000 .f32) : Vec F S100000 .f32 :=
  select (cmpf .ogt deg (broadcastInDim S100000 ![] bcast_S_S100000 (constant S_ .f32 0x00000000#32))) (Host.rsqrt deg)
    (broadcastInDim S100000 ![] bcast_S_S100000 (id (constant S_ .f32 0x00000000#32)))

/-- The symmetric normalisation of every edge: `dinv(s) * 1 * dinv(d)`. -/
def edgeNorm (s d : Vec F S1700000 .i32) : Vec F S1700000 .f32 :=
  mulf (mulf (Host.gather gather_S100000_S1700000x1_S1700000_n_0_n_n_0_1_1 (invSqrt (degree d))
        (broadcastInDim S1700000x1 ![0] bcast_S1700000_S1700000x1_0 (wrap s))) ones)
    (Host.gather gather_S100000_S1700000x1_S1700000_n_0_n_n_0_1_1 (invSqrt (degree d))
        (broadcastInDim S1700000x1 ![0] bcast_S1700000_S1700000x1_0 (wrap d)))

/-- One layer: the normalised messages `h(s) * norm` summed into their targets, plus the bias row. -/
def layer (h : Vec F S100000x128 .f32) (src dst : Vec F S1600000 .i32) (b : Vec F S128 .f32) : Vec F S100000x128 .f32 :=
  addf (Host.scatterAdd scatter_S100000x128_S1700000x1_S1700000x128_1_0_0_1
      (broadcastInDim S100000x128 ![] bcast_S_S100000x128 (constant S_ .f32 0x00000000#32))
      (broadcastInDim S1700000x1 ![0] bcast_S1700000_S1700000x1_0 (withLoops dst))
      (mulf (Host.gather gather_S100000x128_S1700000x1_S1700000x128_1_0_n_n_0_1_1128 h
              (broadcastInDim S1700000x1 ![0] bcast_S1700000_S1700000x1_0 (wrap (withLoops src))))
            (broadcastInDim S1700000x128 ![0, 1] bcast_S1700000x1_S1700000x128_0_1
              (broadcastInDim S1700000x1 ![0] bcast_S1700000_S1700000x1_0 (edgeNorm (withLoops src) (withLoops dst))))))
    (broadcastInDim S100000x128 ![0, 1] bcast_S1x128_S100000x128_0_1 (broadcastInDim S1x128 ![1] bcast_S128_S1x128_1 b))

/-- The positive part, entry by entry. -/
def relu (x : Vec F S100000x128 .f32) : Vec F S100000x128 .f32 :=
  maximumf x (broadcastInDim S100000x128 ![] bcast_S_S100000x128 (constant S_ .f32 0x00000000#32))

/-- The plain matrix product `[100000,128] x [128,128]`. -/
def matprod (x : Vec F S100000x128 .f32) (w : Vec F S128x128 .f32) : Vec F S100000x128 .f32 :=
  Host.dotGeneral dot_S100000x128_S128x128_S100000x128_1_0_0_1_n_n none x w

/-- The representation: two layers with the positive part between them. -/
def rep (x : Vec F S100000x128 .f32) (e : Vec F S2x1600000 .i32) (w1 : Vec F S128x128 .f32) (b1 : Vec F S128 .f32)
    (w2 : Vec F S128x128 .f32) (b2 : Vec F S128 .f32) : Vec F S100000x128 .f32 :=
  layer (matprod (relu (layer (matprod x w1) (row0 e) (row1 e) b1)) w2) (row0 e) (row1 e) b2

end Cert.Gcn

end
-- ==== Proof.LibPlainDot.lean ====
/-
  The product of an [M, K] matrix with a [K, N] matrix, contracted on the left operand's second axis and the right
  operand's first, read at an output index. Independent of any program.

  With no batch axis the contraction index has one coordinate, running over the K shared positions; at the output index
  (p, q) the left operand is read at (p, k) and the right at (k, q). So the contraction's sum over its own index type is
  the familiar sum over k of l (p, k) · r (k, q).
-/
import Idealize.ShloMosaic.Lib.ValueIdx
import Idealize.ShloMosaic.PureOps.Ideal
import Idealize.ShloMosaic.PureOps.Ideal.Laws

noncomputable section

namespace Cert.Lib

open Idealize.ShloMosaic Idealize.ShloMosaic.ValueIdx

/-- The dimension numbers of a plain matrix product [M, K] × [K, N] → [M, N]. -/
abbrev plainDot (M K N : Nat)
    (wf : DotDims.WF ⟨2, ![M, K]⟩ ⟨2, ![K, N]⟩ ⟨2, ![M, N]⟩ [1] [0] [0] [1] [] []) :
    DotDims ⟨2, ![M, K]⟩ ⟨2, ![K, N]⟩ ⟨2, ![M, N]⟩ where
  lhsContracting := [1]
  rhsContracting := [0]
  lhsNonContracting := [0]
  rhsNonContracting := [1]
  lhsBatch := []
  rhsBatch := []
  wf := wf

/-- THE CONTRACTION AS A SUM OVER k: at the output index (p, q) the product's terms are l (p, k) · r (k, q). -/
theorem plainDot_sum {M K N : Nat}
    (wf : DotDims.WF ⟨2, ![M, K]⟩ ⟨2, ![K, N]⟩ ⟨2, ![M, N]⟩ [1] [0] [0] [1] [] [])
    (l : (⟨2, ![M, K]⟩ : Shape).Idx → EReal) (r : (⟨2, ![K, N]⟩ : Shape).Idx → EReal) (p : Fin M) (q : Fin N) :
    ∑ k : (plainDot M K N wf).contr.Idx,
        l ((plainDot M K N wf).lhsIdx (ix2 p q) k) * r ((plainDot M K N wf).rhsIdx (ix2 p q) k)
      = ∑ k : Fin K, l (ix2 p k) * r (ix2 k q) := by
  rw [← Equiv.sum_comp (contrEquiv1 (plainDot M K N wf) K rfl rfl).symm]
  refine Finset.sum_congr rfl fun k _ => ?_
  have hk := contrEquiv1_symm_val (plainDot M K N wf) K rfl rfl k
  have el : (plainDot M K N wf).lhsIdx (ix2 p q) ((contrEquiv1 (plainDot M K N wf) K rfl rfl).symm k) = ix2 p k :=
    funext fun a => Fin.ext (by
      match a with
      | ⟨0, _⟩ =>
        show ((plainDot M K N wf).lhsIdx (ix2 p q) ((contrEquiv1 (plainDot M K N wf) K rfl rfl).symm k) 0).val = p.val
        unfold DotDims.lhsIdx
        rw [dif_neg (show ¬ (0 : Fin 2) ∈ ([] : List (Fin 2)) from List.not_mem_nil),
          dif_pos (show (0 : Fin 2) ∈ ([0] : List (Fin 2)) from List.mem_singleton.mpr rfl)]
        rfl
      | ⟨1, _⟩ => exact ((plainDot M K N wf).lhsIdx_val_of_single rfl (ix2 p q) _).trans hk)
  have er : (plainDot M K N wf).rhsIdx (ix2 p q) ((contrEquiv1 (plainDot M K N wf) K rfl rfl).symm k) = ix2 k q :=
    funext fun a => Fin.ext (by
      match a with
      | ⟨0, _⟩ => exact ((plainDot M K N wf).rhsIdx_val_of_single rfl (ix2 p q) _).trans hk
      | ⟨1, _⟩ =>
        show ((plainDot M K N wf).rhsIdx (ix2 p q) ((contrEquiv1 (plainDot M K N wf) K rfl rfl).symm k) 1).val = q.val
        unfold DotDims.rhsIdx
        rw [dif_neg (show ¬ (1 : Fin 2) ∈ ([] : List (Fin 2)) from List.not_mem_nil),
          dif_pos (show (1 : Fin 2) ∈ ([1] : List (Fin 2)) from List.mem_singleton.mpr rfl)]
        rfl)
  rw [el, er]

/-- A kernel's matrix product into a zero accumulator, at (p, q). -/
theorem matmul_zero_apply {M K N : Nat} {φ₁ φ₂ : FTy}
    (wf : DotDims.WF ⟨2, ![M, K]⟩ ⟨2, ![K, N]⟩ ⟨2, ![M, N]⟩ [1] [0] [0] [1] [] [])
    (prec : Option ContractPrecision) (l : FVec Ideal ⟨2, ![M, K]⟩ φ₁) (r : FVec Ideal ⟨2, ![K, N]⟩ φ₂)
    (p : Fin M) (q : Fin N) :
    FloatOps.matmul (plainDot M K N wf) prec l r (constant (F := Ideal) ⟨2, ![M, N]⟩ .f32 0x00000000#32) (ix2 p q)
      = ∑ k : Fin K, l (ix2 p k) * r (ix2 k q) := by
  rw [Ideal.matmul_constant_zero_apply]
  exact plainDot_sum wf l r p q

/-- The host's matrix product, at (p, q). -/
theorem dotGeneral_plain_apply {M K N : Nat} {φ₁ φ₂ : FTy}
    (wf : DotDims.WF ⟨2, ![M, K]⟩ ⟨2, ![K, N]⟩ ⟨2, ![M, N]⟩ [1] [0] [0] [1] [] [])
    (prec : Option ContractPrecision) (sched : HostSchedule) (l : FVec Ideal ⟨2, ![M, K]⟩ φ₁) (r : FVec Ideal ⟨2, ![K, N]⟩ φ₂)
    (p : Fin M) (q : Fin N) :
    FloatOps.dotGeneral (plainDot M K N wf) prec sched l r (ix2 p q)
      = ∑ k : Fin K, l (ix2 p k) * r (ix2 k q) := by
  rw [Ideal.dotGeneral_apply]
  exact plainDot_sum wf l r p q

end Cert.Lib

end
-- ==== Proof.Region0.lean ====
/-
  Kernel region 0: a product of a [100000,128] matrix X with a [128,128] matrix W, computed in ten tiles of 10000 rows.

  At grid point t the body loads rows 10000·t … 10000·t + 9999 of X and all of W, and stores their product into the
  same rows of the output.  At the extended reals the conversion to the narrow float format is the identity and the
  product into a zero accumulator is the plain sum, so entry (r, q) of the tile is the sum over k of
  X(10000·t + r, k) · W(k, q): the tile is the corresponding block of the whole product X·W.  Row p of the output lies in
  the tile of point p / 10000, so the ten tiles cover the output and the array the region leaves is X·W.
-/
import proofs.«155977_j69836168233271_2_alg».proof.Proof.Gen.KernelIdeal.Frame
import proofs.«155977_j69836168233271_2_alg».proof.Proof.Spec
import proofs.«155977_j69836168233271_2_alg».proof.Proof.LibPlainDot
import Idealize.ShloMosaic.Lib.Pipeline.Value
import Idealize.ShloMosaic.Lib.ValueIdx
import Idealize.ShloMosaic.Lib.ValueLayout

set_option maxRecDepth 16384

noncomputable section

namespace Cert.KernelIdeal.Region0

open Cert.KernelIdeal Cert.KernelIdeal.Gen
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem origin_zero : (![0, 0] : Fin 2 → Nat) = fun _ => 0 := funext fun a => by fin_cases a <;> rfl

/-- Entry (r, q) of a tile's product is the sum over k of (row r of the X tile) · (column q of W). -/
theorem tile_apply (x0 : Vec Ideal S10000x128 .f32) (x1 : Vec Ideal S128x128 .f32) (r : Fin 10000) (q : Fin 128) :
    k0_pay1 (F := Ideal) x0 x1 (ix2 r q) = ∑ k : Fin 128, x0 (ix2 r k) * x1 (ix2 k q) := by
  unfold k0_pay1
  exact Cert.Lib.matmul_zero_apply dot_S10000x128_S128x128_S10000x128_1_0_0_1_n_n_wf none
    (truncf .bf16 x0 bitsLt_bf16_f32) (truncf .bf16 x1 bitsLt_bf16_f32) r q

/-- Where the windows sit at point t: X's tile and the output's tile are tile t along the rows, W is whole. -/
theorem tiles_at : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- WHAT POINT t WRITES BACK is tile t of the whole product. -/
theorem flushed_eq (c : Dev nD) (t : Fin cfg0.N) :
    (dat0 V c).flushed 2 t
      = ((cfg0.win 2).blk t).view.read (Elt Ideal) (Cert.Gcn.matprod (F := Ideal) (V c main_arg0) (V c main_arg3)) := by
  show (cfg0.win 2).cut (grid0.coords t) ((dat0 V c).after 2 t) = _
  rw [after0_2]
  unfold out0_2
  rw [View.canon_unit_zero origin_zero]
  simp only [View.ld_unit_zero (S := S10000x128) origin_zero, View.ld_unit_zero (S := S128x128) origin_zero]
  obtain ⟨e0, e1, e2, e3, e4, e5⟩ := tiles_at t
  have ht : t.val < 10 := lt_of_lt_of_eq t.isLt N_0
  funext j
  obtain ⟨r, q, rfl⟩ : ∃ (r : Fin 10000) (q : Fin 128), j = ix2 r q := ⟨j 0, j 1, eq_ix2 j⟩
  have hr : r.val < 10000 := r.isLt
  have hemb : ((cfg0.win 2).blk t).view.emb (ix2 r q) = ix2 (⟨t.val * 10000 + r.val, by omega⟩ : Fin 100000) q := by
    funext a; apply Fin.ext
    match a with
    | ⟨0, _⟩ => show win0_2.index t (0 : Fin 2) * 10000 + 1 * r.val = t.val * 10000 + r.val; omega
    | ⟨1, _⟩ => show win0_2.index t (1 : Fin 2) * 128 + 1 * q.val = q.val; omega
  show k0_pay1 (iblk0 V c 0 t) (iblk0 V c 1 t) (ix2 r q)
      = Cert.Gcn.matprod (F := Ideal) (V c main_arg0) (V c main_arg3) (((cfg0.win 2).blk t).view.emb (ix2 r q))
  rw [hemb]
  refine (tile_apply (iblk0 V c 0 t) (iblk0 V c 1 t) r q).trans ?_
  refine Eq.trans ?_ (Cert.Lib.dotGeneral_plain_apply
    Cert.ReferenceIdeal.Gen.dot_S100000x128_S128x128_S100000x128_1_0_0_1_n_n_wf none .single (V c main_arg0) (V c main_arg3)
    (⟨t.val * 10000 + r.val, by omega⟩ : Fin 100000) q).symm
  refine Finset.sum_congr rfl fun k _ => ?_
  have hx : iblk0 V c 0 t (ix2 r k) = V c main_arg0 (ix2 (⟨t.val * 10000 + r.val, by omega⟩ : Fin 100000) k) := by
    show V c main_arg0 (((cfg0.win 0).blk t).view.emb (ix2 r k)) = _
    refine congrArg (V c main_arg0) ?_
    funext a; apply Fin.ext
    match a with
    | ⟨0, _⟩ => show win0_0.index t (0 : Fin 2) * 10000 + 1 * r.val = t.val * 10000 + r.val; omega
    | ⟨1, _⟩ => show win0_0.index t (1 : Fin 2) * 128 + 1 * k.val = k.val; omega
  have hw : iblk0 V c 1 t (ix2 k q) = V c main_arg3 (ix2 k q) := by
    show V c main_arg3 (((cfg0.win 1).blk t).view.emb (ix2 k q)) = _
    refine congrArg (V c main_arg3) ?_
    funext a; apply Fin.ext
    match a with
    | ⟨0, _⟩ => show win0_1.index t (0 : Fin 2) * 128 + 1 * k.val = k.val; omega
    | ⟨1, _⟩ => show win0_1.index t (1 : Fin 2) * 128 + 1 * q.val = q.val; omega
  rw [hx, hw]

/-- An index of the output is in point t's tile iff each coordinate is in the tile's range on its axis. -/
theorem mem_tile (t : Fin cfg0.N) (i : S100000x128.Idx) :
    i ∈ ((cfg0.win 2).blk t).view.set ↔ ∀ a : Fin 2, win0_2.index t a * S10000x128.size a ≤ (i a).val ∧ (i a).val < win0_2.index t a * S10000x128.size a + S10000x128.size a := by
  show i ∈ ((View.whole main_v4).slice (win0_2.rect t)).set ↔ _
  rw [View.set_slice_whole, Rect.mem_set_unit]
  exact Iff.rfl

/-- Row p of the output lies in the tile of point p / 10000: the ten tiles cover the output. -/
theorem tiles_cover (i : S100000x128.Idx) :
    ∃ t : Fin cfg0.N, (cfg0.win 2).flush t = true ∧ i ∈ ((cfg0.win 2).blk t).view.set := by
  have hi0 : (i 0).val < 100000 := (i 0).isLt
  have hi1 : (i 1).val < 128 := (i 1).isLt
  have hN : cfg0.N = 10 := N_0
  obtain ⟨t, htv⟩ : ∃ t : Fin cfg0.N, t.val = (i 0).val / 10000 := ⟨⟨(i 0).val / 10000, by rw [hN]; omega⟩, rfl⟩
  refine ⟨t, flush0_2 t, ?_⟩
  rw [mem_tile]
  obtain ⟨-, -, -, -, e4, e5⟩ := tiles_at t
  intro a
  match a with
  | ⟨0, _⟩ =>
    show win0_2.index t (0 : Fin 2) * 10000 ≤ (i 0).val ∧ (i 0).val < win0_2.index t (0 : Fin 2) * 10000 + 10000
    omega
  | ⟨1, _⟩ =>
    show win0_2.index t (1 : Fin 2) * 128 ≤ (i 1).val ∧ (i 1).val < win0_2.index t (1 : Fin 2) * 128 + 128
    omega

/-- THE ARRAY the region leaves is the whole product of the two arrays it found. -/
theorem product (c : Dev nD) :
    (dat0 V c).arrAt 2 cfg0.N = Cert.Gcn.matprod (F := Ideal) (V c main_arg0) (V c main_arg3) :=
  (dat0 V c).arrAt_eq_of_cover 2 _ (fun t _ => flushed_eq V c t) (tiles_cover)

end Cert.KernelIdeal.Region0

end
-- ==== Proof.Region1.lean ====
/-
  Kernel region 1: a product of a [100000,128] matrix X with a [128,128] matrix W, computed in ten tiles of 10000 rows.

  At grid point t the body loads rows 10000·t … 10000·t + 9999 of X and all of W, and stores their product into the
  same rows of the output.  At the extended reals the conversion to the narrow float format is the identity and the
  product into a zero accumulator is the plain sum, so entry (r, q) of the tile is the sum over k of
  X(10000·t + r, k) · W(k, q): the tile is the corresponding block of the whole product X·W.  Row p of the output lies in
  the tile of point p / 10000, so the ten tiles cover the output and the array the region leaves is X·W.
-/
import proofs.«155977_j69836168233271_2_alg».proof.Proof.Gen.KernelIdeal.Frame
import proofs.«155977_j69836168233271_2_alg».proof.Proof.Spec
import proofs.«155977_j69836168233271_2_alg».proof.Proof.LibPlainDot
import Idealize.ShloMosaic.Lib.Pipeline.Value
import Idealize.ShloMosaic.Lib.ValueIdx
import Idealize.ShloMosaic.Lib.ValueLayout

set_option maxRecDepth 16384

noncomputable section

namespace Cert.KernelIdeal.Region1

open Cert.KernelIdeal Cert.KernelIdeal.Gen
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem origin_zero : (![0, 0] : Fin 2 → Nat) = fun _ => 0 := funext fun a => by fin_cases a <;> rfl

/-- Entry (r, q) of a tile's product is the sum over k of (row r of the X tile) · (column q of W). -/
theorem tile_apply (x0 : Vec Ideal S10000x128 .f32) (x1 : Vec Ideal S128x128 .f32) (r : Fin 10000) (q : Fin 128) :
    k1_pay1 (F := Ideal) x0 x1 (ix2 r q) = ∑ k : Fin 128, x0 (ix2 r k) * x1 (ix2 k q) := by
  unfold k1_pay1
  rw [shapeCast_self]
  exact Cert.Lib.matmul_zero_apply dot_S10000x128_S128x128_S10000x128_1_0_0_1_n_n_wf none
    (truncf .bf16 x0 bitsLt_bf16_f32) (truncf .bf16 x1 bitsLt_bf16_f32) r q

/-- Where the windows sit at point t: X's tile and the output's tile are tile t along the rows, W is whole. -/
theorem tiles_at : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- WHAT POINT t WRITES BACK is tile t of the whole product. -/
theorem flushed_eq (c : Dev nD) (t : Fin cfg1.N) :
    (dat1 V c).flushed 2 t
      = ((cfg1.win 2).blk t).view.read (Elt Ideal) (Cert.Gcn.matprod (F := Ideal) (V c main_v48) (V c main_arg5)) := by
  show (cfg1.win 2).cut (grid1.coords t) ((dat1 V c).after 2 t) = _
  rw [after1_2]
  unfold out1_2
  rw [View.canon_unit_zero origin_zero]
  simp only [View.ld_unit_zero (S := S10000x128) origin_zero, View.ld_unit_zero (S := S128x128) origin_zero]
  obtain ⟨e0, e1, e2, e3, e4, e5⟩ := tiles_at t
  have ht : t.val < 10 := lt_of_lt_of_eq t.isLt N_1
  funext j
  obtain ⟨r, q, rfl⟩ : ∃ (r : Fin 10000) (q : Fin 128), j = ix2 r q := ⟨j 0, j 1, eq_ix2 j⟩
  have hr : r.val < 10000 := r.isLt
  have hemb : ((cfg1.win 2).blk t).view.emb (ix2 r q) = ix2 (⟨t.val * 10000 + r.val, by omega⟩ : Fin 100000) q := by
    funext a; apply Fin.ext
    match a with
    | ⟨0, _⟩ => show win1_2.index t (0 : Fin 2) * 10000 + 1 * r.val = t.val * 10000 + r.val; omega
    | ⟨1, _⟩ => show win1_2.index t (1 : Fin 2) * 128 + 1 * q.val = q.val; omega
  show k1_pay1 (iblk1 V c 0 t) (iblk1 V c 1 t) (ix2 r q)
      = Cert.Gcn.matprod (F := Ideal) (V c main_v48) (V c main_arg5) (((cfg1.win 2).blk t).view.emb (ix2 r q))
  rw [hemb]
  refine (tile_apply (iblk1 V c 0 t) (iblk1 V c 1 t) r q).trans ?_
  refine Eq.trans ?_ (Cert.Lib.dotGeneral_plain_apply
    Cert.ReferenceIdeal.Gen.dot_S100000x128_S128x128_S100000x128_1_0_0_1_n_n_wf none .single (V c main_v48) (V c main_arg5)
    (⟨t.val * 10000 + r.val, by omega⟩ : Fin 100000) q).symm
  refine Finset.sum_congr rfl fun k _ => ?_
  have hx : iblk1 V c 0 t (ix2 r k) = V c main_v48 (ix2 (⟨t.val * 10000 + r.val, by omega⟩ : Fin 100000) k) := by
    show V c main_v48 (((cfg1.win 0).blk t).view.emb (ix2 r k)) = _
    refine congrArg (V c main_v48) ?_
    funext a; apply Fin.ext
    match a with
    | ⟨0, _⟩ => show win1_0.index t (0 : Fin 2) * 10000 + 1 * r.val = t.val * 10000 + r.val; omega
    | ⟨1, _⟩ => show win1_0.index t (1 : Fin 2) * 128 + 1 * k.val = k.val; omega
  have hw : iblk1 V c 1 t (ix2 k q) = V c main_arg5 (ix2 k q) := by
    show V c main_arg5 (((cfg1.win 1).blk t).view.emb (ix2 k q)) = _
    refine congrArg (V c main_arg5) ?_
    funext a; apply Fin.ext
    match a with
    | ⟨0, _⟩ => show win1_1.index t (0 : Fin 2) * 128 + 1 * k.val = k.val; omega
    | ⟨1, _⟩ => show win1_1.index t (1 : Fin 2) * 128 + 1 * q.val = q.val; omega
  rw [hx, hw]

/-- An index of the output is in point t's tile iff each coordinate is in the tile's range on its axis. -/
theorem mem_tile (t : Fin cfg1.N) (i : S100000x128.Idx) :
    i ∈ ((cfg1.win 2).blk t).view.set ↔ ∀ a : Fin 2, win1_2.index t a * S10000x128.size a ≤ (i a).val ∧ (i a).val < win1_2.index t a * S10000x128.size a + S10000x128.size a := by
  show i ∈ ((View.whole main_v49).slice (win1_2.rect t)).set ↔ _
  rw [View.set_slice_whole, Rect.mem_set_unit]
  exact Iff.rfl

/-- Row p of the output lies in the tile of point p / 10000: the ten tiles cover the output. -/
theorem tiles_cover (i : S100000x128.Idx) :
    ∃ t : Fin cfg1.N, (cfg1.win 2).flush t = true ∧ i ∈ ((cfg1.win 2).blk t).view.set := by
  have hi0 : (i 0).val < 100000 := (i 0).isLt
  have hi1 : (i 1).val < 128 := (i 1).isLt
  have hN : cfg1.N = 10 := N_1
  obtain ⟨t, htv⟩ : ∃ t : Fin cfg1.N, t.val = (i 0).val / 10000 := ⟨⟨(i 0).val / 10000, by rw [hN]; omega⟩, rfl⟩
  refine ⟨t, flush1_2 t, ?_⟩
  rw [mem_tile]
  obtain ⟨-, -, -, -, e4, e5⟩ := tiles_at t
  intro a
  match a with
  | ⟨0, _⟩ =>
    show win1_2.index t (0 : Fin 2) * 10000 ≤ (i 0).val ∧ (i 0).val < win1_2.index t (0 : Fin 2) * 10000 + 10000
    omega
  | ⟨1, _⟩ =>
    show win1_2.index t (1 : Fin 2) * 128 ≤ (i 1).val ∧ (i 1).val < win1_2.index t (1 : Fin 2) * 128 + 128
    omega

/-- THE ARRAY the region leaves is the whole product of the two arrays it found. -/
theorem product (c : Dev nD) :
    (dat1 V c).arrAt 2 cfg1.N = Cert.Gcn.matprod (F := Ideal) (V c main_v48) (V c main_arg5) :=
  (dat1 V c).arrAt_eq_of_cover 2 _ (fun t _ => flushed_eq V c t) (tiles_cover)

end Cert.KernelIdeal.Region1

end
-- ==== Proof.SpecLoss.lean ====
/-
  The reconstruction loss of a representation R [100000,128] over the positive edges E [2,1600000] (target 1) and the
  negative edges E' [2,500000] (target 0).

  For an edge e = (a, b):  m(e) = 1 when a < b and 0 otherwise;  d(e) = (sum over j of R(a, j) · R(b, j)) - target.
  The loss is  (sum over E' of m · d² + sum over E of m · d²) · 100000 / (sum over E of m + sum over E' of m).

  The kernel's program spells m · d² as (m · d) · d and the reference as m · (d · d).  On the extended reals
  multiplication is associative whatever the factors (also at infinities and at zero), so the two arrays are equal
  entry by entry (`mul_regroup`) and everything built on them agrees (`grouped_eq_squared`).
-/
import proofs.«155977_j69836168233271_2_alg».proof.Proof.Spec

noncomputable section

namespace Cert.Gcn

open Idealize.ShloMosaic Cert.ReferenceIdeal Cert.ReferenceIdeal.Gen

variable {F : FTy → Type} [FloatOps F]

/-! ## The negative edge list's rows, and index wrapping at the two edge counts -/

/-- Row `0` of an edge array `[2, 500000]`, as a vector. -/
def nrow0 (e : Vec F S2x500000 .i32) : Vec F S500000 .i32 :=
  shapeCast _ (extractStridedSlice S1x500000 ![0, 0] e slices_S2x500000_S1x500000_0_0) shapeCasts_S1x500000_S500000

/-- Row `1` of an edge array `[2, 500000]`, as a vector. -/
def nrow1 (e : Vec F S2x500000 .i32) : Vec F S500000 .i32 :=
  shapeCast _ (extractStridedSlice S1x500000 ![1, 0] e slices_S2x500000_S1x500000_1_0) shapeCasts_S1x500000_S500000

/-- A node index below zero is shifted by the number of nodes (positive edge list). -/
def wrapP (i : Vec F S1600000 .i32) : Vec F S1600000 .i32 :=
  select (cmpi .slt i (broadcastInDim S1600000 ![] bcast_S_S1600000 (constantI S_ 32 0#32)))
    (addi i (broadcastInDim S1600000 ![] bcast_S_S1600000 (constantI S_ 32 100000#32))) i

/-- A node index below zero is shifted by the number of nodes (negative edge list). -/
def wrapN (i : Vec F S500000 .i32) : Vec F S500000 .i32 :=
  select (cmpi .slt i (broadcastInDim S500000 ![] bcast_S_S500000 (constantI S_ 32 0#32)))
    (addi i (broadcastInDim S500000 ![] bcast_S_S500000 (constantI S_ 32 100000#32))) i

/-! ## Masks and differences -/

/-- `m(e)` over the positive edges: one where the first endpoint is below the second. -/
def maskP (e : Vec F S2x1600000 .i32) : Vec F S1600000 .f32 := uitofp .f32 (cmpi .slt (row0 e) (row1 e))

/-- `m(e)` over the negative edges. -/
def maskN (e : Vec F S2x500000 .i32) : Vec F S500000 .f32 := uitofp .f32 (cmpi .slt (nrow0 e) (nrow1 e))

/-- `d(e)` over the positive edges: the inner product of the two endpoint rows, minus one. -/
def diffP (r : Vec F S100000x128 .f32) (e : Vec F S2x1600000 .i32) : Vec F S1600000 .f32 :=
  subf (Host.reduceAdd
      (mulf (Host.gather gather_S100000x128_S1600000x1_S1600000x128_1_0_n_n_0_1_1128 r
              (broadcastInDim S1600000x1 ![0] bcast_S1600000_S1600000x1_0 (wrapP (row0 e))))
            (Host.gather gather_S100000x128_S1600000x1_S1600000x128_1_0_n_n_0_1_1128 r
              (broadcastInDim S1600000x1 ![0] bcast_S1600000_S1600000x1_0 (wrapP (row1 e)))))
      (constant S_ .f32 0x00000000#32) reducesTo_S1600000x128_S1600000_d1 h_S_)
    (broadcastInDim S1600000 ![] bcast_S_S1600000 (constant S_ .f32 0x3F800000#32))

/-- `d(e)` over the negative edges: the inner product of the two endpoint rows, minus zero. -/
def diffN (r : Vec F S100000x128 .f32) (e : Vec F S2x500000 .i32) : Vec F S500000 .f32 :=
  subf (Host.reduceAdd
      (mulf (Host.gather gather_S100000x128_S500000x1_S500000x128_1_0_n_n_0_1_1128 r
              (broadcastInDim S500000x1 ![0] bcast_S500000_S500000x1_0 (wrapN (nrow0 e))))
            (Host.gather gather_S100000x128_S500000x1_S500000x128_1_0_n_n_0_1_1128 r
              (broadcastInDim S500000x1 ![0] bcast_S500000_S500000x1_0 (wrapN (nrow1 e)))))
      (constant S_ .f32 0x00000000#32) reducesTo_S500000x128_S500000_d1 h_S_)
    (broadcastInDim S500000 ![] bcast_S_S500000 (constant S_ .f32 0x00000000#32))

/-! ## The loss from the per-edge terms -/

/-- The sum of a vector over the positive edges. -/
def sumP (x : Vec F S1600000 .f32) : Vec F S_ .f32 :=
  Host.reduceAdd x (constant S_ .f32 0x00000000#32) reducesTo_S1600000_S_d0 h_S_

/-- The sum of a vector over the negative edges. -/
def sumN (x : Vec F S500000 .f32) : Vec F S_ .f32 :=
  Host.reduceAdd x (constant S_ .f32 0x00000000#32) reducesTo_S500000_S_d0 h_S_

/-- The loss from the per-edge terms `tP`, `tN` and the masks: (Σ tN + Σ tP) · 100000 / (Σ mP + Σ mN). -/
def lossOf (tP : Vec F S1600000 .f32) (tN : Vec F S500000 .f32) (mP : Vec F S1600000 .f32) (mN : Vec F S500000 .f32) :
    Vec F S_ .f32 :=
  Host.divf (mulf (addf (sumN tN) (sumP tP)) (constant S_ .f32 0x47C35000#32)) (addf (sumP mP) (sumN mN))

/-- The loss with each term grouped `(m · d) · d`. -/
def lossGrouped (r : Vec F S100000x128 .f32) (e : Vec F S2x1600000 .i32) (e' : Vec F S2x500000 .i32) : Vec F S_ .f32 :=
  lossOf (mulf (mulf (maskP e) (diffP r e)) (diffP r e)) (mulf (mulf (maskN e') (diffN r e')) (diffN r e')) (maskP e) (maskN e')

/-- The loss with each term grouped `m · (d · d)`. -/
def lossSquared (r : Vec F S100000x128 .f32) (e : Vec F S2x1600000 .i32) (e' : Vec F S2x500000 .i32) : Vec F S_ .f32 :=
  lossOf (mulf (maskP e) (mulf (diffP r e) (diffP r e))) (mulf (maskN e') (mulf (diffN r e') (diffN r e'))) (maskP e) (maskN e')

/-! ## The two groupings agree at the extended reals -/

/-- `(m · d) · d = m · (d · d)`, entry by entry: multiplication of extended reals is associative. -/
theorem mul_regroup {s : Shape} (m d : FVec Ideal s .f32) :
    mulf (F := Ideal) (mulf (F := Ideal) m d) d = mulf (F := Ideal) m (mulf (F := Ideal) d d) := by
  funext i
  show (m i * d i) * d i = m i * (d i * d i)
  exact mul_assoc _ _ _

/-- The two spellings of the loss are one scalar. -/
theorem grouped_eq_squared (r : Vec Ideal S100000x128 .f32) (e : Vec Ideal S2x1600000 .i32) (e' : Vec Ideal S2x500000 .i32) :
    lossGrouped r e e' = lossSquared r e e' := by
  unfold lossGrouped lossSquared
  rw [mul_regroup, mul_regroup]

end Cert.Gcn

end
-- ==== Proof.KernelHost.lean ====
/-
  The idealized kernel's host stretches, read as the layers and the loss.

  Between its two matrix products and after the second one the kernel's program runs on the host exactly the operations
  of a graph-convolution layer (and, at the end, of the loss).  Each statement below says what ONE buffer holds after a
  run of stretches, as a function of what a few buffers held before it — whatever those held: the starting contents
  `W` are arbitrary.  No arithmetic is opened; the two sides are the same operations in the same order.
-/
import proofs.«155977_j69836168233271_2_alg».proof.Proof.Gen.KernelIdeal.Launch
import proofs.«155977_j69836168233271_2_alg».proof.Proof.SpecLoss
import Idealize.ShloMosaic.Lib.StableHlo.Run

set_option maxRecDepth 16384

noncomputable section

namespace Cert.KernelIdeal.Host

open Cert.KernelIdeal Cert.KernelIdeal.Gen
open Idealize.ShloMosaic Idealize.ShloMosaic.TcCoe Idealize.SL.Sem Idealize.ShloMosaic.StableHlo

variable {F : FTy → Type} [FloatOps F] (W : Valuation τ sig (Elt F))

/-! ## Before the first product: the two rows of the edge list -/

theorem pre_src : after hostOps0 W (Proc.devRef .tc main_v1) = Cert.Gcn.row0 (W (Proc.devRef .tc main_arg1)) := by
  after_results_simp <;> rfl
theorem pre_dst : after hostOps0 W (Proc.devRef .tc main_v3) = Cert.Gcn.row1 (W (Proc.devRef .tc main_arg1)) := by
  after_results_simp <;> rfl

/-! ## Between the products: the first layer and the positive part -/

/-- The contents after the four stretches between the regions. -/
abbrev mid : Valuation τ sig (Elt F) := after hostOps1_3 (after hostOps1_2 (after hostOps1_1 (after hostOps1 W)))

set_option maxHeartbeats 4000000 in
theorem mid_hidden : mid W (Proc.devRef .tc main_v48)
    = Cert.Gcn.relu (Cert.Gcn.layer (W (Proc.devRef .tc main_v4)) (W (Proc.devRef .tc main_v1)) (W (Proc.devRef .tc main_v3))
        (W (Proc.devRef .tc main_arg4))) := by
  after_results_simp <;> rfl

/-! ### Buffers the stretches before the first product leave as they were -/

theorem pre_keeps_arg0 : after hostOps0 W (Proc.devRef .tc main_arg0) = W (Proc.devRef .tc main_arg0) := by
  after_results_simp <;> rfl
theorem pre_keeps_arg1 : after hostOps0 W (Proc.devRef .tc main_arg1) = W (Proc.devRef .tc main_arg1) := by
  after_results_simp <;> rfl
theorem pre_keeps_arg2 : after hostOps0 W (Proc.devRef .tc main_arg2) = W (Proc.devRef .tc main_arg2) := by
  after_results_simp <;> rfl
theorem pre_keeps_arg3 : after hostOps0 W (Proc.devRef .tc main_arg3) = W (Proc.devRef .tc main_arg3) := by
  after_results_simp <;> rfl
theorem pre_keeps_arg4 : after hostOps0 W (Proc.devRef .tc main_arg4) = W (Proc.devRef .tc main_arg4) := by
  after_results_simp <;> rfl
theorem pre_keeps_arg5 : after hostOps0 W (Proc.devRef .tc main_arg5) = W (Proc.devRef .tc main_arg5) := by
  after_results_simp <;> rfl
theorem pre_keeps_arg6 : after hostOps0 W (Proc.devRef .tc main_arg6) = W (Proc.devRef .tc main_arg6) := by
  after_results_simp <;> rfl

/-! ### Buffers the stretches between the products leave as they were -/

set_option maxHeartbeats 2000000 in
theorem mid_keeps_v1 : mid W (Proc.devRef .tc main_v1) = W (Proc.devRef .tc main_v1) := by
  after_results_simp <;> rfl
set_option maxHeartbeats 2000000 in
theorem mid_keeps_v3 : mid W (Proc.devRef .tc main_v3) = W (Proc.devRef .tc main_v3) := by
  after_results_simp <;> rfl
set_option maxHeartbeats 2000000 in
theorem mid_keeps_arg1 : mid W (Proc.devRef .tc main_arg1) = W (Proc.devRef .tc main_arg1) := by
  after_results_simp <;> rfl
set_option maxHeartbeats 2000000 in
theorem mid_keeps_arg2 : mid W (Proc.devRef .tc main_arg2) = W (Proc.devRef .tc main_arg2) := by
  after_results_simp <;> rfl
set_option maxHeartbeats 2000000 in
theorem mid_keeps_arg5 : mid W (Proc.devRef .tc main_arg5) = W (Proc.devRef .tc main_arg5) := by
  after_results_simp <;> rfl
set_option maxHeartbeats 2000000 in
theorem mid_keeps_arg6 : mid W (Proc.devRef .tc main_arg6) = W (Proc.devRef .tc main_arg6) := by
  after_results_simp <;> rfl

/-! ## After the second product: the second layer, then the loss -/

/-- The contents after the three stretches that follow the second region. -/
abbrev tail : Valuation τ sig (Elt F) := after hostOps2_2 (after hostOps2_1 (after hostOps2 W))

set_option maxHeartbeats 8000000 in
theorem tail_rep : tail W (Proc.devRef .tc main_v92)
    = Cert.Gcn.layer (W (Proc.devRef .tc main_v49)) (W (Proc.devRef .tc main_v1)) (W (Proc.devRef .tc main_v3))
        (W (Proc.devRef .tc main_arg6)) := by
  after_results_simp <;> rfl

set_option maxHeartbeats 16000000 in
theorem tail_loss : tail W (Proc.devRef .tc main_v152)
    = Cert.Gcn.lossGrouped
        (Cert.Gcn.layer (W (Proc.devRef .tc main_v49)) (W (Proc.devRef .tc main_v1)) (W (Proc.devRef .tc main_v3))
          (W (Proc.devRef .tc main_arg6)))
        (W (Proc.devRef .tc main_arg1)) (W (Proc.devRef .tc main_arg2)) := by
  after_results_simp <;> rfl

end Cert.KernelIdeal.Host

end
-- ==== Proof.KernelValue.lean ====
/-
  The idealized kernel's two results as functions of its arguments.

  The contents of the buffers at the boundaries between the program's segments are read back, boundary by boundary, to
  the launch memory m:
    * before the first region the edge list's two rows are sliced off (src, dst);
    * the first region leaves X · W1;
    * the host stretches between the regions leave relu (layer (X · W1) src dst b1)  =: H;
    * the second region leaves H · W2;
    * the last stretches leave the representation R = layer (H · W2) src dst b2 and the loss of R, each per-edge term
      grouped (m · d) · d.
  A buffer that a segment does not write holds what it held before the segment.
-/
import proofs.«155977_j69836168233271_2_alg».proof.Proof.Gen.KernelIdeal.Frame
import proofs.«155977_j69836168233271_2_alg».proof.Proof.Region0
import proofs.«155977_j69836168233271_2_alg».proof.Proof.Region1
import proofs.«155977_j69836168233271_2_alg».proof.Proof.KernelHost

set_option maxRecDepth 16384

noncomputable section

namespace Cert.KernelIdeal.Results

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

/-! ## At the first region's entry -/

theorem at1_arg0 : W1 m ρ c (Proc.devRef .tc main_arg0) = m ((c : Thread nD τ).loc main_arg0) := Host.pre_keeps_arg0 (W0 m ρ c)
theorem at1_arg1 : W1 m ρ c (Proc.devRef .tc main_arg1) = m ((c : Thread nD τ).loc main_arg1) := Host.pre_keeps_arg1 (W0 m ρ c)
theorem at1_arg2 : W1 m ρ c (Proc.devRef .tc main_arg2) = m ((c : Thread nD τ).loc main_arg2) := Host.pre_keeps_arg2 (W0 m ρ c)
theorem at1_arg3 : W1 m ρ c (Proc.devRef .tc main_arg3) = m ((c : Thread nD τ).loc main_arg3) := Host.pre_keeps_arg3 (W0 m ρ c)
theorem at1_arg4 : W1 m ρ c (Proc.devRef .tc main_arg4) = m ((c : Thread nD τ).loc main_arg4) := Host.pre_keeps_arg4 (W0 m ρ c)
theorem at1_arg5 : W1 m ρ c (Proc.devRef .tc main_arg5) = m ((c : Thread nD τ).loc main_arg5) := Host.pre_keeps_arg5 (W0 m ρ c)
theorem at1_arg6 : W1 m ρ c (Proc.devRef .tc main_arg6) = m ((c : Thread nD τ).loc main_arg6) := Host.pre_keeps_arg6 (W0 m ρ c)
theorem at1_v1 : W1 m ρ c (Proc.devRef .tc main_v1) = Cert.Gcn.row0 (m ((c : Thread nD τ).loc main_arg1)) := Host.pre_src (W0 m ρ c)
theorem at1_v3 : W1 m ρ c (Proc.devRef .tc main_v3) = Cert.Gcn.row1 (m ((c : Thread nD τ).loc main_arg1)) := Host.pre_dst (W0 m ρ c)

/-! ## At the first region's exit -/

/-- The first region leaves the product of the features with the first weight matrix. -/
theorem at2_v4 : W2 m ρ c (Proc.devRef .tc main_v4) = Cert.Gcn.matprod (m ((c : Thread nD τ).loc main_arg0)) (m ((c : Thread nD τ).loc main_arg3)) :=
  (W2_arr m ρ c 2).trans ((Region0.product (V1 m ρ) c).trans
    (congr (congrArg (Cert.Gcn.matprod (F := Ideal)) (at1_arg0 m ρ c)) (at1_arg3 m ρ c)))

theorem at2_arg1 : W2 m ρ c (Proc.devRef .tc main_arg1) = m ((c : Thread nD τ).loc main_arg1) := (W2_of_ne m ρ c main_arg1 (by decide)).trans (at1_arg1 m ρ c)
theorem at2_arg2 : W2 m ρ c (Proc.devRef .tc main_arg2) = m ((c : Thread nD τ).loc main_arg2) := (W2_of_ne m ρ c main_arg2 (by decide)).trans (at1_arg2 m ρ c)
theorem at2_arg4 : W2 m ρ c (Proc.devRef .tc main_arg4) = m ((c : Thread nD τ).loc main_arg4) := (W2_of_ne m ρ c main_arg4 (by decide)).trans (at1_arg4 m ρ c)
theorem at2_arg5 : W2 m ρ c (Proc.devRef .tc main_arg5) = m ((c : Thread nD τ).loc main_arg5) := (W2_of_ne m ρ c main_arg5 (by decide)).trans (at1_arg5 m ρ c)
theorem at2_arg6 : W2 m ρ c (Proc.devRef .tc main_arg6) = m ((c : Thread nD τ).loc main_arg6) := (W2_of_ne m ρ c main_arg6 (by decide)).trans (at1_arg6 m ρ c)
theorem at2_v1 : W2 m ρ c (Proc.devRef .tc main_v1) = Cert.Gcn.row0 (m ((c : Thread nD τ).loc main_arg1)) := (W2_of_ne m ρ c main_v1 (by decide)).trans (at1_v1 m ρ c)
theorem at2_v3 : W2 m ρ c (Proc.devRef .tc main_v3) = Cert.Gcn.row1 (m ((c : Thread nD τ).loc main_arg1)) := (W2_of_ne m ρ c main_v3 (by decide)).trans (at1_v3 m ρ c)

/-! ## At the second region's entry -/

/-- The hidden layer: the first layer's positive part. -/
abbrev hidden : Vec Ideal Cert.ReferenceIdeal.S100000x128 .f32 :=
  Cert.Gcn.relu (Cert.Gcn.layer (Cert.Gcn.matprod (m ((c : Thread nD τ).loc main_arg0)) (m ((c : Thread nD τ).loc main_arg3))) (Cert.Gcn.row0 (m ((c : Thread nD τ).loc main_arg1)))
    (Cert.Gcn.row1 (m ((c : Thread nD τ).loc main_arg1))) (m ((c : Thread nD τ).loc main_arg4)))

theorem at6_v48 : W6 m ρ c (Proc.devRef .tc main_v48) = hidden m c := by
  refine (Host.mid_hidden (W2 m ρ c)).trans ?_
  rw [at2_v4, at2_v1, at2_v3, at2_arg4]

theorem at6_arg1 : W6 m ρ c (Proc.devRef .tc main_arg1) = m ((c : Thread nD τ).loc main_arg1) := (Host.mid_keeps_arg1 (W2 m ρ c)).trans (at2_arg1 m ρ c)
theorem at6_arg2 : W6 m ρ c (Proc.devRef .tc main_arg2) = m ((c : Thread nD τ).loc main_arg2) := (Host.mid_keeps_arg2 (W2 m ρ c)).trans (at2_arg2 m ρ c)
theorem at6_arg5 : W6 m ρ c (Proc.devRef .tc main_arg5) = m ((c : Thread nD τ).loc main_arg5) := (Host.mid_keeps_arg5 (W2 m ρ c)).trans (at2_arg5 m ρ c)
theorem at6_arg6 : W6 m ρ c (Proc.devRef .tc main_arg6) = m ((c : Thread nD τ).loc main_arg6) := (Host.mid_keeps_arg6 (W2 m ρ c)).trans (at2_arg6 m ρ c)
theorem at6_v1 : W6 m ρ c (Proc.devRef .tc main_v1) = Cert.Gcn.row0 (m ((c : Thread nD τ).loc main_arg1)) := (Host.mid_keeps_v1 (W2 m ρ c)).trans (at2_v1 m ρ c)
theorem at6_v3 : W6 m ρ c (Proc.devRef .tc main_v3) = Cert.Gcn.row1 (m ((c : Thread nD τ).loc main_arg1)) := (Host.mid_keeps_v3 (W2 m ρ c)).trans (at2_v3 m ρ c)

/-! ## At the second region's exit -/

/-- The second region leaves the product of the hidden layer with the second weight matrix. -/
theorem at7_v49 : W7 m ρ c (Proc.devRef .tc main_v49) = Cert.Gcn.matprod (hidden m c) (m ((c : Thread nD τ).loc main_arg5)) :=
  (W7_arr m ρ c 2).trans ((Region1.product (V6 m ρ) c).trans
    (congr (congrArg (Cert.Gcn.matprod (F := Ideal)) (at6_v48 m ρ c)) (at6_arg5 m ρ c)))

theorem at7_arg1 : W7 m ρ c (Proc.devRef .tc main_arg1) = m ((c : Thread nD τ).loc main_arg1) := (W7_of_ne m ρ c main_arg1 (by decide)).trans (at6_arg1 m ρ c)
theorem at7_arg2 : W7 m ρ c (Proc.devRef .tc main_arg2) = m ((c : Thread nD τ).loc main_arg2) := (W7_of_ne m ρ c main_arg2 (by decide)).trans (at6_arg2 m ρ c)
theorem at7_arg6 : W7 m ρ c (Proc.devRef .tc main_arg6) = m ((c : Thread nD τ).loc main_arg6) := (W7_of_ne m ρ c main_arg6 (by decide)).trans (at6_arg6 m ρ c)
theorem at7_v1 : W7 m ρ c (Proc.devRef .tc main_v1) = Cert.Gcn.row0 (m ((c : Thread nD τ).loc main_arg1)) := (W7_of_ne m ρ c main_v1 (by decide)).trans (at6_v1 m ρ c)
theorem at7_v3 : W7 m ρ c (Proc.devRef .tc main_v3) = Cert.Gcn.row1 (m ((c : Thread nD τ).loc main_arg1)) := (W7_of_ne m ρ c main_v3 (by decide)).trans (at6_v3 m ρ c)

/-! ## The results -/

/-- The representation, from the arguments. -/
abbrev repOf : Vec Ideal Cert.ReferenceIdeal.S100000x128 .f32 :=
  Cert.Gcn.rep (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6))

/-- The first result is the representation. -/
theorem result_rep : W10 m ρ c (Proc.devRef .tc main_v92) = repOf m c := by
  refine (Host.tail_rep (W7 m ρ c)).trans ?_
  rw [at7_v49, at7_v1, at7_v3, at7_arg6]
  rfl

/-- The second result is the loss of the representation, each term grouped (m · d) · d. -/
theorem result_loss : W10 m ρ c (Proc.devRef .tc main_v152)
    = Cert.Gcn.lossGrouped (repOf m c) (m ((c : Thread nD τ).loc main_arg1)) (m ((c : Thread nD τ).loc main_arg2)) := by
  refine (Host.tail_loss (W7 m ρ c)).trans ?_
  rw [at7_v49, at7_v1, at7_v3, at7_arg6, at7_arg1, at7_arg2]
  rfl

end Cert.KernelIdeal.Results

end
-- ==== Proof.RefStages.lean ====
/-
  The reference's two results are the layers and the loss.

  The reference's run gives each result as one composed term of the seven arguments.  Read off that term: the first
  result is two graph-convolution layers with the positive part between them, each layer fed by a plain matrix product;
  the second is the loss of that representation with every per-edge term grouped m · (d · d).  The edge rows are sliced
  again for the loss, from the same argument, so they are the same vectors.
-/
import proofs.«155977_j69836168233271_2_alg».proof.Proof.RefRun
import proofs.«155977_j69836168233271_2_alg».proof.Proof.SpecLoss

set_option maxRecDepth 16384

noncomputable section

namespace Cert.ReferenceIdeal.RefValue

open Cert.ReferenceIdeal Cert.ReferenceIdeal.Gen Cert.ReferenceIdeal.ValueP
open Idealize.ShloMosaic Idealize.ShloMosaic.TcCoe Idealize.SL.Sem

variable {F : FTy → Type} [FloatOps F] (m : (ℓ : Loc nD τ sig) → Buf (Elt F) ℓ) (c : Dev nD)

/-- The representation the reference computes from its arguments. -/
abbrev repOf : Vec F S100000x128 .f32 :=
  Cert.Gcn.rep (m ((c.tc : Thread nD τ).loc main_arg0)) (m ((c.tc : Thread nD τ).loc main_arg1))
    (m ((c.tc : Thread nD τ).loc main_arg3)) (m ((c.tc : Thread nD τ).loc main_arg4))
    (m ((c.tc : Thread nD τ).loc main_arg5)) (m ((c.tc : Thread nD τ).loc main_arg6))

set_option maxHeartbeats 4000000 in
/-- The first result is the representation. -/
theorem out0_eq : res_main_v92 m c = repOf m c := by
  unfold res_main_v92
  rfl

set_option maxHeartbeats 8000000 in
/-- The second result is the loss of the representation, each term grouped m · (d · d). -/
theorem out1_eq : res_main_v160 m c
    = Cert.Gcn.lossSquared (repOf m c) (m ((c.tc : Thread nD τ).loc main_arg1)) (m ((c.tc : Thread nD τ).loc main_arg2)) := by
  unfold res_main_v160
  rfl

end Cert.ReferenceIdeal.RefValue

end
-- ==== Proof.lean ====
/-
  A two-layer graph convolution with a reconstruction loss: the kernel's program against its reference, over the
  extended reals.

  Both programs compute, from node features X [100000,128], an edge list E [2,1600000], a negative edge list
  E' [2,500000], weights W1, W2 [128,128] and biases b1, b2 [128],

      H = relu (layer (X · W1) E b1),     R = layer (H · W2) E b2,     loss (R, E, E'),

  where `layer` adds a self-loop per node, normalises every edge by deg^(-1/2) at both ends, sums the normalised
  messages into their target nodes and adds the bias (Proof/Spec.lean), and the loss is the masked squared error of the
  edges' inner products against 1 on E and 0 on E' (Proof/SpecLoss.lean).  They differ in two places only:

    * the two matrix products: the kernel computes each in ten tiles of 10000 rows on the device, the reference as one
      product on the host.  At the extended reals a tile's entry is the plain sum over k of X(p,k) · W(k,q), the tiles
      cover the output, and the array left is the whole product (Proof/Region0.lean, Proof/Region1.lean);
    * the squared error's grouping: (m · d) · d in the kernel's program, m · (d · d) in the reference.  Multiplication of
      extended reals is associative, so these agree entry by entry — no finiteness of the inputs is used.

  Everything else is the same host operations in the same order on both sides, and is never opened.
  The idealized kernel is the kernel's own text read at the extended reals: no rewrite was applied, and that claim is
  trivial.
-/
import proofs.«155977_j69836168233271_2_alg».proof.Defs
import proofs.«155977_j69836168233271_2_alg».proof.Proof.Gen.Kernel
import proofs.«155977_j69836168233271_2_alg».proof.Proof.Gen.Kernel.Frame
import proofs.«155977_j69836168233271_2_alg».proof.Proof.Gen.KernelIdeal
import proofs.«155977_j69836168233271_2_alg».proof.Proof.Gen.KernelIdeal.Frame
import proofs.«155977_j69836168233271_2_alg».proof.Proof.Gen.ReferenceIdeal
import proofs.«155977_j69836168233271_2_alg».proof.Proof.Gen.Pre_finite_inputs
import proofs.«155977_j69836168233271_2_alg».proof.Proof.KernelRun
import proofs.«155977_j69836168233271_2_alg».proof.Proof.KernelValue
import proofs.«155977_j69836168233271_2_alg».proof.Proof.RefRun
import proofs.«155977_j69836168233271_2_alg».proof.Proof.RefStages
import Idealize.ShloMosaic.Adequacy
import Idealize.ShloMosaic.Init

noncomputable section

namespace Cert.Proof

open Idealize.ShloMosaic Idealize.ShloMosaic.TcCoe Idealize.SL.Sem

/-! ## The three frames and the idealization -/

theorem frame_kernel : Cert.frame_Kernel := fun m ρ _ => Cert.Kernel.Gen.frame m ρ

theorem frame_kernelIdeal : Cert.frame_KernelIdeal := fun m ρ _ => Cert.KernelIdeal.Gen.frame m ρ

/-- The reference's run, with its two results dropped. -/
theorem frame_referenceIdeal : Cert.frame_ReferenceIdeal := fun m ρ _ =>
  (θ_run Cert.ReferenceIdeal.defs _ _).mono (fun _ h c => (h c).2.2) (Cert.ReferenceIdeal.ValueP.run (F := Ideal) m ρ)

theorem preserves : Cert.preserves_Kernel_KernelIdeal := trivial

/-! ## Equal results -/

section Agree

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ)
  (c : Dev Cert.KernelIdeal.nD)

/-- From memories that agree on the arguments the two programs build the same representation. -/
theorem rep_agree
    (a0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (a1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (a3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (a4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (a5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
    (a6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) :
    Cert.ReferenceIdeal.RefValue.repOf m' c = Cert.KernelIdeal.Results.repOf m c := by
  unfold Cert.ReferenceIdeal.RefValue.repOf Cert.KernelIdeal.Results.repOf
  rw [a0, a1, a3, a4, a5, a6]

end Agree

/-- At the extended reals, from memories agreeing on the arguments, both programs end with the representation R and
    its loss: the kernel by its run read boundary by boundary, the reference by its run's composed terms, the loss's
    two groupings joined by associativity. -/
theorem algebraic : Cert.algebraic_KernelIdeal_ReferenceIdeal := by
  intro m ρ m' ρ' _ hagree
  refine ⟨fun c => Cert.KernelIdeal.Results.repOf m c,
    fun c => Cert.Gcn.lossGrouped (Cert.KernelIdeal.Results.repOf m c)
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)), ?_, ?_⟩
  · refine (θ_run Cert.KernelIdeal.defs _ _).mono (fun r h c => ?_) (Cert.KernelIdeal.Run.run (F := Ideal) m ρ)
    obtain ⟨h0, h1, hargs⟩ := h c
    exact ⟨h0.trans (Cert.KernelIdeal.Results.result_rep m ρ c), h1.trans (Cert.KernelIdeal.Results.result_loss m ρ c), hargs⟩
  · refine (θ_run Cert.ReferenceIdeal.defs _ _).mono (fun r h c => ?_) (Cert.ReferenceIdeal.ValueP.run (F := Ideal) m' ρ')
    obtain ⟨h0, h1, hargs⟩ := h c
    obtain ⟨a0, a1, a2, a3, a4, a5, a6⟩ := hagree c
    have hrep := rep_agree m m' c a0 a1 a3 a4 a5 a6
    refine ⟨h0.trans ((Cert.ReferenceIdeal.RefValue.out0_eq m' c).trans hrep), h1.trans ?_, hargs⟩
    rw [Cert.ReferenceIdeal.RefValue.out1_eq, hrep, a1, a2]
    exact (Cert.Gcn.grouped_eq_squared _ _ _).symm

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
